-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x64 : Shape := ⟨3, ![4, 8192, 64]⟩
abbrev S4x8192x8192 : Shape := ⟨3, ![4, 8192, 8192]⟩
abbrev S4x8192x16 : Shape := ⟨3, ![4, 8192, 16]⟩
abbrev S_ : Shape := ⟨0, ![]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel
  bcast_S_S4x8192x8192 : S_.BroadcastsInDim S4x8192x8192 (![] : Fin 0 → Fin S4x8192x8192.rank)
  reducesTo_S4x8192x8192_S_d0_1_2 : S4x8192x8192.ReducesTo [0, 1, 2] S_
  bcast_S_S4x8192x16 : S_.BroadcastsInDim S4x8192x16 (![] : Fin 0 → Fin S4x8192x16.rank)
  reducesTo_S4x8192x16_S_d0_1_2 : S4x8192x16.ReducesTo [0, 1, 2] S_

variable [Facts]

def fn {F : FTy → Type} [FloatOps F] (main_arg0 : FVec F S4x8192x64 .f32) (main_arg1 : FVec F S4x8192x8192 .f32) (main_arg2 : FVec F S4x8192x16 .f32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  let main_v4 : FVec F S4x8192x8192 .f32 := Host.absf main_arg1
  let main_cst_0 : FVec F S_ .f32 := constant S_ .f32 0x7F800000#32
  let main_v5 : FVec F S4x8192x8192 .f32 := broadcastInDim S4x8192x8192 ![] bcast_S_S4x8192x8192 main_cst_0
  let main_v6 : IVec S4x8192x8192 1 := cmpf .olt main_v4 main_v5
  let main_c_1 : IVec S_ 1 := constantI S_ 1 1#1
  let main_v7 : IVec S_ 1 := (fun x v => Host.reduce IntOp.andi x v reducesTo_S4x8192x8192_S_d0_1_2 h_S_) main_v6 main_c_1
  let main_v8 : IVec S_ 1 := andi main_v3 main_v7
  let main_v9 : FVec F S4x8192x16 .f32 := Host.absf main_arg2
  let main_cst_2 : FVec F S_ .f32 := constant S_ .f32 0x7F800000#32
  let main_v10 : FVec F S4x8192x16 .f32 := broadcastInDim S4x8192x16 ![] bcast_S_S4x8192x16 main_cst_2
  let main_v11 : IVec S4x8192x16 1 := cmpf .olt main_v9 main_v10
  let main_c_3 : IVec S_ 1 := constantI S_ 1 1#1
  let main_v12 : IVec S_ 1 := (fun x v => Host.reduce IntOp.andi x v reducesTo_S4x8192x16_S_d0_1_2 h_S_) main_v11 main_c_3
  let main_v13 : IVec S_ 1 := andi main_v8 main_v12
  main_v13
-- ==== Kernel.lean ====
abbrev S4x8192x64 : Shape := ⟨3, ![4, 8192, 64]⟩
abbrev S4x8192x8192 : Shape := ⟨3, ![4, 8192, 8192]⟩
abbrev S4x8192x16 : Shape := ⟨3, ![4, 8192, 16]⟩
abbrev S_ : Shape := ⟨0, ![]⟩
abbrev S4x8192 : Shape := ⟨2, ![4, 8192]⟩
abbrev S4x8192x1 : Shape := ⟨3, ![4, 8192, 1]⟩
abbrev S4x8x128 : Shape := ⟨3, ![4, 8, 128]⟩
abbrev S1x256x8192 : Shape := ⟨3, ![1, 256, 8192]⟩
abbrev S1x8192x16 : Shape := ⟨3, ![1, 8192, 16]⟩
abbrev S1x8x128 : Shape := ⟨3, ![1, 8, 128]⟩
abbrev S16x16 : Shape := ⟨2, ![16, 16]⟩
abbrev S256x8192 : Shape := ⟨2, ![256, 8192]⟩
abbrev S8192x16 : Shape := ⟨2, ![8192, 16]⟩
abbrev S256x16 : Shape := ⟨2, ![256, 16]⟩
abbrev S1x256x16 : Shape := ⟨3, ![1, 256, 16]⟩
abbrev S16x256 : Shape := ⟨2, ![16, 256]⟩
abbrev S16 : Shape := ⟨1, ![16]⟩
abbrev S16x1 : Shape := ⟨2, ![16, 1]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S4 : Shape := ⟨1, ![4]⟩
abbrev S4x16x16 : Shape := ⟨3, ![4, 16, 16]⟩
abbrev S1x16x16 : Shape := ⟨3, ![1, 16, 16]⟩

abbrev nBuf : Space → Nat
  | .hbm => 47
  | .vmem => 7
  | .smem => 0
  | _ => 0

abbrev bufTy : (tb : Table) → Fin (tcTables nBuf tb) → BufTy
  | .hbm, ⟨0, _⟩ => ⟨S4x8192x64, .f32⟩
  | .hbm, ⟨1, _⟩ => ⟨S4x8192x8192, .f32⟩
  | .hbm, ⟨2, _⟩ => ⟨S4x8192x16, .f32⟩
  | .hbm, ⟨3, _⟩ => ⟨S_, .f32⟩
  | .hbm, ⟨4, _⟩ => ⟨S4x8192, .f32⟩
  | .hbm, ⟨5, _⟩ => ⟨S_, .f32⟩
  | .hbm, ⟨6, _⟩ => ⟨S4x8192, .f32⟩
  | .hbm, ⟨7, _⟩ => ⟨S4x8192, .f32⟩
  | .hbm, ⟨8, _⟩ => ⟨S4x8192x1, .f32⟩
  | .hbm, ⟨9, _⟩ => ⟨S4x8192x16, .f32⟩
  | .hbm, ⟨10, _⟩ => ⟨S4x8192x16, .f32⟩
  | .hbm, ⟨11, _⟩ => ⟨S4x8192x16, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x16, .f32⟩
  | .hbm, ⟨16, _⟩ => ⟨S4x8192x16, .f32⟩
  | .hbm, ⟨17, _⟩ => ⟨S4x8192x16, .bf16⟩
  | .hbm, ⟨18, _⟩ => ⟨S4x8x128, .f32⟩
  | .hbm, ⟨19, _⟩ => ⟨S4x1x1, .f32⟩
  | .hbm, ⟨20, _⟩ => ⟨S4, .f32⟩
  | .hbm, ⟨21, _⟩ => ⟨S_, .f32⟩
  | .hbm, ⟨22, _⟩ => ⟨S_, .f32⟩
  | .hbm, ⟨23, _⟩ => ⟨S4x1x1, .f32⟩
  | .hbm, ⟨24, _⟩ => ⟨S4, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x16x16, .f32⟩
  | .hbm, ⟨29, _⟩ => ⟨S16x16, .i32⟩
  | .hbm, ⟨30, _⟩ => ⟨S16x16, .i32⟩
  | .hbm, ⟨31, _⟩ => ⟨S_, .i32⟩
  | .hbm, ⟨32, _⟩ => ⟨S16x16, .i32⟩
  | .hbm, ⟨33, _⟩ => ⟨S16x16, .i32⟩
  | .hbm, ⟨34, _⟩ => ⟨S16x16, .i1⟩
  | .hbm, ⟨35, _⟩ => ⟨S16x16, .f32⟩
  | .hbm, ⟨36, _⟩ => ⟨S1x16x16, .f32⟩
  | .hbm, ⟨37, _⟩ => ⟨S4x16x16, .f32⟩
  | .hbm, ⟨38, _⟩ => ⟨S4x16x16, .f32⟩
  | .hbm, ⟨39, _⟩ => ⟨S4x16x16, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S1x256x8192, .f32⟩
  | .local _ .vmem, ⟨1, _⟩ => ⟨S1x256x8192, .f32⟩
  | .local _ .vmem, ⟨2, _⟩ => ⟨S1x8192x16, .bf16⟩
  | .local _ .vmem, ⟨3, _⟩ => ⟨S1x8192x16, .f32⟩
  | .local _ .vmem, ⟨4, _⟩ => ⟨S1x8x128, .f32⟩
  | .local _ .vmem, ⟨5, _⟩ => ⟨S1x8x128, .f32⟩
  | .local _ .vmem, ⟨6, _⟩ => ⟨S16x16, .f32⟩
  | _, _ => ⟨S4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v9 : BitVec 32 := Scalar.muli arg1 c256_i32
  v9
def k0_off1 (i : grid0.Coords) : Fin 3 → Nat :=
  let c0_6 : Index := 0#32
  let arg1 : BitVec 32 := BitVec.ofNat 32 (i 1).val
  let c256_i32 : BitVec 32 := 256#32
  let v9 : BitVec 32 := Scalar.muli arg1 c256_i32
  let v10 : BitVec 32 := v9
  let v11 : Index := Scalar.indexCast v10
  let c0_7 : Index := 0#32
  ![0, v11.toNat, 0]
def k0_cond2 (i : grid0.Coords) : BitVec 1 :=
  let arg1 : BitVec 32 := BitVec.ofNat 32 (i 1).val
  let c31_i32 : BitVec 32 := 31#32
  let v21 : BitVec 1 := Scalar.cmpi .eq arg1 c31_i32
  let v22 : BitVec 32 := Scalar.extui v21
  let c0_i32_13 : BitVec 32 := 0#32
  let v23 : BitVec 1 := Scalar.cmpi .ne v22 c0_i32_13
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8192x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S4x8192x16_S4x8192_d2 : S4x8192x16.ReducesTo [2] S4x8192
  h_S_ : 0 < S_.numel
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S4x8192x1_S4x8192x16_0_1_2 : S4x8192x1.BroadcastsInDim S4x8192x16 (![0, 1, 2] : Fin 3 → Fin S4x8192x16.rank)
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  inb_S1x8192x16_S1x8192x16_0_0_0 : ∀ a, (![0, 0, 0] : Fin 3 → Nat) a + S1x8192x16.size a ≤ S1x8192x16.size a
  h_S1x8192x16 : 0 < S1x8192x16.numel
  shapeCasts_S1x8192x16_S8192x16 : S1x8192x16.ShapeCasts S8192x16
  h_S1x256x16 : 0 < S1x256x16.numel
  shapeCasts_S1x256x16_S256x16 : S1x256x16.ShapeCasts S256x16
  transposes_S256x16_p1_0_S16x256 : S256x16.Transposes [1, 0] S16x256
  iota_S16x16_d0_w32 : S16x16.Iotas .tc 32 [0]
  iota_S16x16_d1_w32 : S16x16.Iotas .tc 32 [1]
  natLt_1_32 : 1 < 32
  reduces_S16x16_S16 : S16x16.Reduces [1] S16
  shapeCasts_S16_S16x1 : S16.ShapeCasts S16x1
  reduces_S16x1_S1 : S16x1.Reduces [0] S1
  shapeCasts_S1_S1x1 : S1.ShapeCasts S1x1
  iota_S1x8x128_d2_w32 : S1x8x128.Iotas .tc 32 [2]
  iota_S1x8x128_d1_w32 : S1x8x128.Iotas .tc 32 [1]
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S4x8x128_S4x1x1_0_0_0 : S4x8x128.Slices ![0, 0, 0] S4x1x1
  shapeCasts_S4x1x1_S4 : S4x1x1.ShapeCasts S4
  reducesTo_S4_S_d0 : S4.ReducesTo [0] S_
  slices_S4x8x128_S4x1x1_0_0_1 : S4x8x128.Slices ![0, 0, 1] S4x1x1
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  bcast_S1x16x16_S4x16x16_0_1_2 : S1x16x16.BroadcastsInDim S4x16x16 (![0, 1, 2] : Fin 3 → Fin S4x16x16.rank)
  reducesTo_S4x16x16_S_d0_1_2 : S4x16x16.ReducesTo [0, 1, 2] S_
  dot_S256x8192_S8192x16_S256x16_1_0_0_1_n_n_wf : DotDims.WF S256x8192 S8192x16 S256x16 [1] [0] [0] [1] [] []
  dot_S16x256_S256x16_S16x16_1_0_0_1_n_n_wf : DotDims.WF S16x256 S256x16 S16x16 [1] [0] [0] [1] [] []
  dot_S4x8192x16_S4x8192x16_S4x16x16_1_1_2_2_0_0_wf : DotDims.WF S4x8192x16 S4x8192x16 S4x16x16 [1] [1] [2] [2] [0] [0]
  hrank0 : 0 < grid0.rank
  k0_mult1_dvd : ∀ i : grid0.Coords, 256 ∣ (k0_mult1 i).toNat
  k0_off1_inb : ∀ i : grid0.Coords, ∀ a, (k0_off1 i) a + S1x256x16.size a ≤ S1x8192x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S4x8192x8192.size a
  hwx0_0 : ∀ i : grid0.Coords, EltTy.bits .f32 = 32 ∨ (Rect.block (s := S4x8192x8192) S1x256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192x16.size a ≤ S4x8192x16.size a
  hwx0_1 : ∀ i : grid0.Coords, EltTy.bits .bf16 = 32 ∨ (Rect.block (s := S4x8192x16) S1x8192x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192x16.size a ≤ S4x8192x16.size a
  hwx0_2 : ∀ i : grid0.Coords, EltTy.bits .f32 = 32 ∨ (Rect.block (s := S4x8192x16) S1x8192x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S4x8x128.size a
  hwx0_3 : ∀ i : grid0.Coords, EltTy.bits .f32 = 32 ∨ (Rect.block (s := S4x8x128) S1x8x128.size (cc0_transform_3 i) (hinb0_3 i)).WholeWords (EltTy.packing .f32)

variable [Facts₀]

def dot_S256x8192_S8192x16_S256x16_1_0_0_1_n_n : DotDims S256x8192 S8192x16 S256x16 where
  lhsContracting := [1]
  rhsContracting := [0]
  lhsNonContracting := [0]
  rhsNonContracting := [1]
  lhsBatch := []
  rhsBatch := []
  wf := dot_S256x8192_S8192x16_S256x16_1_0_0_1_n_n_wf
def dot_S16x256_S256x16_S16x16_1_0_0_1_n_n : DotDims S16x256 S256x16 S16x16 where
  lhsContracting := [1]
  rhsContracting := [0]
  lhsNonContracting := [0]
  rhsNonContracting := [1]
  lhsBatch := []
  rhsBatch := []
  wf := dot_S16x256_S256x16_S16x16_1_0_0_1_n_n_wf
def dot_S4x8192x16_S4x8192x16_S4x16x16_1_1_2_2_0_0 : DotDims S4x8192x16 S4x8192x16 S4x16x16 where
  lhsContracting := [1]
  rhsContracting := [1]
  lhsNonContracting := [2]
  rhsNonContracting := [2]
  lhsBatch := [0]
  rhsBatch := [0]
  wf := dot_S4x8192x16_S4x8192x16_S4x16x16_1_1_2_2_0_0_wf

abbrev win0_0 : Pipeline.Window sig grid0 :=
  Pipeline.Window.ofSpec (Memref.whole main_arg1) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x8192x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x8192x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x8192x64 : Shape := ⟨3, ![4, 8192, 64]⟩
abbrev S4x8192x8192 : Shape := ⟨3, ![4, 8192, 8192]⟩
abbrev S4x8192x16 : Shape := ⟨3, ![4, 8192, 16]⟩
abbrev S_ : Shape := ⟨0, ![]⟩
abbrev S4x8192 : Shape := ⟨2, ![4, 8192]⟩
abbrev S4x8192x1 : Shape := ⟨3, ![4, 8192, 1]⟩
abbrev S4x16x8192 : Shape := ⟨3, ![4, 16, 8192]⟩
abbrev S4x16x16 : Shape := ⟨3, ![4, 16, 16]⟩
abbrev S16x16 : Shape := ⟨2, ![16, 16]⟩
abbrev S4 : Shape := ⟨1, ![4]⟩
abbrev S1x16x16 : Shape := ⟨3, ![1, 16, 16]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x64, .f32⟩
  | .hbm, ⟨1, _⟩ => ⟨S4x8192x8192, .f32⟩
  | .hbm, ⟨2, _⟩ => ⟨S4x8192x16, .f32⟩
  | .hbm, ⟨3, _⟩ => ⟨S_, .f32⟩
  | .hbm, ⟨4, _⟩ => ⟨S4x8192, .f32⟩
  | .hbm, ⟨5, _⟩ => ⟨S_, .f32⟩
  | .hbm, ⟨6, _⟩ => ⟨S4x8192, .f32⟩
  | .hbm, ⟨7, _⟩ => ⟨S4x8192, .f32⟩
  | .hbm, ⟨8, _⟩ => ⟨S4x8192x1, .f32⟩
  | .hbm, ⟨9, _⟩ => ⟨S4x8192x16, .f32⟩
  | .hbm, ⟨10, _⟩ => ⟨S4x8192x16, .f32⟩
  | .hbm, ⟨11, _⟩ => ⟨S4x8192x16, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x16, .f32⟩
  | .hbm, ⟨16, _⟩ => ⟨S4x8192x16, .f32⟩
  | .hbm, ⟨17, _⟩ => ⟨S4x16x8192, .f32⟩
  | .hbm, ⟨18, _⟩ => ⟨S4x16x16, .f32⟩
  | .hbm, ⟨19, _⟩ => ⟨S16x16, .i32⟩
  | .hbm, ⟨20, _⟩ => ⟨S16x16, .i32⟩
  | .hbm, ⟨21, _⟩ => ⟨S_, .i32⟩
  | .hbm, ⟨22, _⟩ => ⟨S16x16, .i32⟩
  | .hbm, ⟨23, _⟩ => ⟨S16x16, .i32⟩
  | .hbm, ⟨24, _⟩ => ⟨S16x16, .i1⟩
  | .hbm, ⟨25, _⟩ => ⟨S_, .f32⟩
  | .hbm, ⟨26, _⟩ => ⟨S4x16x16, .f32⟩
  | .hbm, ⟨27, _⟩ => ⟨S4x16x16, .i1⟩
  | .hbm, ⟨28, _⟩ => ⟨S4x16x16, .f32⟩
  | .hbm, ⟨29, _⟩ => ⟨S_, .f32⟩
  | .hbm, ⟨30, _⟩ => ⟨S4, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x16x16, .f32⟩
  | .hbm, ⟨37, _⟩ => ⟨S16x16, .i32⟩
  | .hbm, ⟨38, _⟩ => ⟨S16x16, .i32⟩
  | .hbm, ⟨39, _⟩ => ⟨S_, .i32⟩
  | .hbm, ⟨40, _⟩ => ⟨S16x16, .i32⟩
  | .hbm, ⟨41, _⟩ => ⟨S16x16, .i32⟩
  | .hbm, ⟨42, _⟩ => ⟨S16x16, .i1⟩
  | .hbm, ⟨43, _⟩ => ⟨S16x16, .f32⟩
  | .hbm, ⟨44, _⟩ => ⟨S1x16x16, .f32⟩
  | .hbm, ⟨45, _⟩ => ⟨S4x16x16, .f32⟩
  | .hbm, ⟨46, _⟩ => ⟨S4x16x16, .f32⟩
  | .hbm, ⟨47, _⟩ => ⟨S4x16x16, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_c : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_cst : Ref sig .tc := ⟨.hbm, 25, rfl⟩
abbrev main_call0_v5 : Ref sig .tc := ⟨.hbm, 26, rfl⟩
abbrev main_call0_call0_v0 : Ref sig .tc := ⟨.hbm, 27, rfl⟩
abbrev main_call0_v6 : Ref sig .tc := ⟨.hbm, 28, rfl⟩
abbrev main_call0_cst_0 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  reducesTo_S4x8192x16_S4x8192_d2 : S4x8192x16.ReducesTo [2] S4x8192
  h_S_ : 0 < S_.numel
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S4x8192x1_S4x8192x16_0_1_2 : S4x8192x1.BroadcastsInDim S4x8192x16 (![0, 1, 2] : Fin 3 → Fin S4x8192x16.rank)
  bcast_S_S16x16 : S_.BroadcastsInDim S16x16 (![] : Fin 0 → Fin S16x16.rank)
  bcast_S_S4x16x16 : S_.BroadcastsInDim S4x16x16 (![] : Fin 0 → Fin S4x16x16.rank)
  bcast_S16x16_S4x16x16_1_2 : S16x16.BroadcastsInDim S4x16x16 (![1, 2] : Fin 2 → Fin S4x16x16.rank)
  reducesTo_S4x16x16_S4_d1_2 : S4x16x16.ReducesTo [1, 2] S4
  reducesTo_S4_S_d0 : S4.ReducesTo [0] S_
  reducesTo_S4x16x16_S_d0_1_2 : S4x16x16.ReducesTo [0, 1, 2] S_
  bcast_S16x16_S1x16x16_1_2 : S16x16.BroadcastsInDim S1x16x16 (![1, 2] : Fin 2 → Fin S1x16x16.rank)
  bcast_S1x16x16_S4x16x16_0_1_2 : S1x16x16.BroadcastsInDim S4x16x16 (![0, 1, 2] : Fin 3 → Fin S4x16x16.rank)
  dot_S4x8192x16_S4x8192x8192_S4x16x8192_1_1_2_2_0_0_wf : DotDims.WF S4x8192x16 S4x8192x8192 S4x16x8192 [1] [1] [2] [2] [0] [0]
  dot_S4x16x8192_S4x8192x16_S4x16x16_2_1_1_2_0_0_wf : DotDims.WF S4x16x8192 S4x8192x16 S4x16x16 [2] [1] [1] [2] [0] [0]
  dot_S4x8192x16_S4x8192x16_S4x16x16_1_1_2_2_0_0_wf : DotDims.WF S4x8192x16 S4x8192x16 S4x16x16 [1] [1] [2] [2] [0] [0]

variable [Facts₀]

def dot_S4x8192x16_S4x8192x8192_S4x16x8192_1_1_2_2_0_0 : DotDims S4x8192x16 S4x8192x8192 S4x16x8192 where
  lhsContracting := [1]
  rhsContracting := [1]
  lhsNonContracting := [2]
  rhsNonContracting := [2]
  lhsBatch := [0]
  rhsBatch := [0]
  wf := dot_S4x8192x16_S4x8192x8192_S4x16x8192_1_1_2_2_0_0_wf
def dot_S4x16x8192_S4x8192x16_S4x16x16_2_1_1_2_0_0 : DotDims S4x16x8192 S4x8192x16 S4x16x16 where
  lhsContracting := [2]
  rhsContracting := [1]
  lhsNonContracting := [1]
  rhsNonContracting := [2]
  lhsBatch := [0]
  rhsBatch := [0]
  wf := dot_S4x16x8192_S4x8192x16_S4x16x16_2_1_1_2_0_0_wf
def dot_S4x8192x16_S4x8192x16_S4x16x16_1_1_2_2_0_0 : DotDims S4x8192x16 S4x8192x16 S4x16x16 where
  lhsContracting := [1]
  rhsContracting := [1]
  lhsNonContracting := [2]
  rhsNonContracting := [2]
  lhsBatch := [0]
  rhsBatch := [0]
  wf := dot_S4x8192x16_S4x8192x16_S4x16x16_1_1_2_2_0_0_wf

class Facts : Prop extends Facts₀ where

variable [Facts]
-- ==== Proof.KernelPieces.lean ====
/-
  What one step of the kernel body leaves behind, as values.

  At a grid point (b, j) the body reads the W row tile x0 ([1,256,8192]), the whole assignment block of batch b twice
  (x1 in bf16, x2 in f32) and the 16 × 16 accumulator kept in scratch. It adds to the accumulator the product
  (rows 256 j … 256 j + 255 of x2)ᵀ · (x0 · x1); at j = 0 the accumulator is first reset to zero, and at j = 31 the
  trace and the total of the finished accumulator are written to lanes 0 and 1 of the output block. Each case of the
  body's two conditionals is one covering store into the scratch (two at j = 0) and, at j = 31, one into the output, so
  what it leaves is that store's arithmetic applied to the loaded blocks.
-/
import proofs.«176780_j25563645346550_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 256 rows of the batch's assignment block that the tile at grid point `i` pairs with its W rows:
    rows 256 · i₁ … 256 · i₁ + 255. -/
abbrev tileRows (i : grid0.Coords) (x2 : Vec F S1x8192x16 .f32) : Vec F S1x256x16 .f32 :=
  View.ld x2 (Rect.unit (s := S1x8192x16) (k0_off1 i) S1x256x16.size (k0_off1_inb i))

/-- One accumulation step: the accumulator `acc` plus the tile's contribution. -/
abbrev step (i : grid0.Coords) (x0 : Vec F S1x256x8192 .f32) (x1 : Vec F S1x8192x16 .bf16) (x2 : Vec F S1x8192x16 .f32)
    (acc : Vec F S16x16 .f32) : Vec F S16x16 .f32 :=
  k0_pay2 x0 x1 (tileRows i x2) acc

/-- A middle tile (0 < j < 31) leaves the accumulator one step further. -/
theorem sout_B (c : Dev nD) (i : grid0.Coords) (arg2 : Memref sig .tc .vmem S1x256x8192 .f32) (harg2 : arg2.IsWhole) (arg3 : Memref sig .tc .vmem S1x8192x16 .bf16) (harg3 : arg3.IsWhole) (arg4 : Memref sig .tc .vmem S1x8192x16 .f32) (harg4 : arg4.IsWhole) (arg5 : Memref sig .tc .vmem S1x8x128 .f32) (harg5 : arg5.IsWhole) (arg6 : Memref sig .tc .vmem S16x16 .f32) (harg6 : arg6.IsWhole) (hc0 : ¬cond0_0 i) (hc1 : ¬cond0_1 i)
    (x0 : Vec F S1x256x8192 .f32) (x1 : Vec F S1x8192x16 .bf16) (x2 : Vec F S1x8192x16 .f32) (xs0 : Vec F S16x16 .f32) :
    sout0_B_0 c i arg2 harg2 arg3 harg3 arg4 harg4 arg5 harg5 arg6 harg6 hc0 hc1 x0 x1 x2 xs0 = step i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread,
    View.ld_unit_zero (S := S1x256x8192) hz3, View.ld_unit_zero (S := S1x8192x16) hz3, View.ld_unit_zero (S := S16x16) hz2]
  rfl

/-- The first tile (j = 0) resets the accumulator to zero and takes one step from there. -/
theorem sout_A (c : Dev nD) (i : grid0.Coords) (arg2 : Memref sig .tc .vmem S1x256x8192 .f32) (harg2 : arg2.IsWhole) (arg3 : Memref sig .tc .vmem S1x8192x16 .bf16) (harg3 : arg3.IsWhole) (arg4 : Memref sig .tc .vmem S1x8192x16 .f32) (harg4 : arg4.IsWhole) (arg5 : Memref sig .tc .vmem S1x8x128 .f32) (harg5 : arg5.IsWhole) (arg6 : Memref sig .tc .vmem S16x16 .f32) (harg6 : arg6.IsWhole) (hc0 : cond0_0 i) (hc1 : ¬cond0_1 i)
    (x0 : Vec F S1x256x8192 .f32) (x1 : Vec F S1x8192x16 .bf16) (x2 : Vec F S1x8192x16 .f32) :
    sout0_A_0 c i arg2 harg2 arg3 harg3 arg4 harg4 arg5 harg5 arg6 harg6 hc0 hc1 x0 x1 x2 = step i x0 x1 x2 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S16x16) hz2, View.readCov_unit_zero (S := S16x16) _ hz2]
  simp only [View.readAt_eq_ld, harg2.read_unread, harg3.read_unread, harg4.read_unread, harg6.read_unread,
    View.ld_unit_zero (S := S1x256x8192) hz3, View.ld_unit_zero (S := S1x8192x16) hz3, View.ld_unit_zero (S := S16x16) hz2]
  rfl

/-- The last tile (j = 31) also takes one step … -/
theorem sout_C (c : Dev nD) (i : grid0.Coords) (arg2 : Memref sig .tc .vmem S1x256x8192 .f32) (harg2 : arg2.IsWhole) (arg3 : Memref sig .tc .vmem S1x8192x16 .bf16) (harg3 : arg3.IsWhole) (arg4 : Memref sig .tc .vmem S1x8192x16 .f32) (harg4 : arg4.IsWhole) (arg5 : Memref sig .tc .vmem S1x8x128 .f32) (harg5 : arg5.IsWhole) (arg6 : Memref sig .tc .vmem S16x16 .f32) (harg6 : arg6.IsWhole) (hc0 : ¬cond0_0 i) (hc1 : cond0_1 i)
    (x0 : Vec F S1x256x8192 .f32) (x1 : Vec F S1x8192x16 .bf16) (x2 : Vec F S1x8192x16 .f32) (xs0 : Vec F S16x16 .f32) :
    sout0_C_0 c i arg2 harg2 arg3 harg3 arg4 harg4 arg5 harg5 arg6 harg6 hc0 hc1 x0 x1 x2 xs0 = step i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S1x256x8192) hz3, View.ld_unit_zero (S := S1x8192x16) hz3, View.ld_unit_zero (S := S16x16) hz2]
  rfl

/-- … and writes, into the output block, the lane summary of the accumulator after that step. -/
theorem out_C (c : Dev nD) (i : grid0.Coords) (arg2 : Memref sig .tc .vmem S1x256x8192 .f32) (harg2 : arg2.IsWhole) (arg3 : Memref sig .tc .vmem S1x8192x16 .bf16) (harg3 : arg3.IsWhole) (arg4 : Memref sig .tc .vmem S1x8192x16 .f32) (harg4 : arg4.IsWhole) (arg5 : Memref sig .tc .vmem S1x8x128 .f32) (harg5 : arg5.IsWhole) (arg6 : Memref sig .tc .vmem S16x16 .f32) (harg6 : arg6.IsWhole) (hc0 : ¬cond0_0 i) (hc1 : cond0_1 i)
    (x0 : Vec F S1x256x8192 .f32) (x1 : Vec F S1x8192x16 .bf16) (x2 : Vec F S1x8192x16 .f32) (xs0 : Vec F S16x16 .f32) :
    out0_C_3 c i arg2 harg2 arg3 harg3 arg4 harg4 arg5 harg5 arg6 harg6 hc0 hc1 x0 x1 x2 xs0 = k0_pay3 (step i x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S16x16) _ hz2]
  simp only [View.readAt_eq_ld, harg2.read_unread, harg3.read_unread, harg4.read_unread, harg6.read_unread,
    View.ld_unit_zero (S := S1x256x8192) hz3, View.ld_unit_zero (S := S1x8192x16) hz3, View.ld_unit_zero (S := S16x16) hz2]
  rfl

end Cert.KernelIdeal.Hand

end
-- ==== Proof.Accumulate.lean ====
/-
  The accumulator along the grid.

  The grid runs the 32 row tiles of batch 0, then those of batch 1, and so on: point n is tile n mod 32 of batch n / 32.
  The scratch accumulator after point n is therefore a recursion on n: at the first tile of a batch it is one step
  from zero, at every other tile one step from what the point before left. At the last tile of a batch the output block
  receives the lane summary (trace in lane 0, total in lane 1 of sublane 0) of that accumulator.
-/
import proofs.«176780_j25563645346550_2_alg».proof.Proof.KernelPieces

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ)

/-- One step at point `t` over the blocks the windows hold there. -/
abbrev stepAt (c : Dev nD) (t : Fin cfg0.N) (acc : Vec F S16x16 .f32) : Vec F S16x16 .f32 :=
  step (grid0.coords t) (iblk m c 0 t) (iblk m c 1 t) (iblk m c 2 t) acc

/-- The accumulator after point `n`. -/
def chain (c : Dev nD) : (n : ℕ) → n < cfg0.N → Vec F S16x16 .f32
  | 0, h => stepAt m c ⟨0, h⟩ k0_pay1
  | n + 1, h => if (n + 1) % 32 = 0 then stepAt m c ⟨n + 1, h⟩ k0_pay1
      else stepAt m c ⟨n + 1, h⟩ (chain c n (Nat.lt_of_succ_lt h))

theorem chain_zero (c : Dev nD) (h : 0 < cfg0.N) : chain m c 0 h = stepAt m c ⟨0, h⟩ k0_pay1 := rfl

theorem chain_first (c : Dev nD) (n : ℕ) (h : n + 1 < cfg0.N) (h0 : (n + 1) % 32 = 0) :
    chain m c (n + 1) h = stepAt m c ⟨n + 1, h⟩ k0_pay1 := by
  show (if (n + 1) % 32 = 0 then _ else _) = _
  rw [if_pos h0]

theorem chain_next (c : Dev nD) (n : ℕ) (h : n + 1 < cfg0.N) (h0 : ¬(n + 1) % 32 = 0) :
    chain m c (n + 1) h = stepAt m c ⟨n + 1, h⟩ (chain m c n (Nat.lt_of_succ_lt h)) := by
  show (if (n + 1) % 32 = 0 then _ else _) = _
  rw [if_neg h0]

/-- What the scratch holds after point `n` is the accumulator after `n` steps of its batch. -/
theorem outsAt_snd (c : Dev nD) : ∀ (n : ℕ) (h : n < cfg0.N), (outsAt0 m c n h).2 = chain m c n h
  | 0, h => by
    rw [outsAt0_A m c ⟨0, h⟩ rfl (show ¬(0 : ℕ) % 32 = 31 by decide)]
    dsimp only
    exact sout_A ..
  | n + 1, h => by
    by_cases h0 : (n + 1) % 32 = 0
    · have h1 : ¬(n + 1) % 32 = 31 := by omega
      rw [outsAt0_A m c ⟨n + 1, h⟩ h0 h1, chain_first m c n h h0]
      dsimp only
      exact sout_A ..
    · by_cases h1 : (n + 1) % 32 = 31
      · rw [outsAt0_C m c ⟨n + 1, h⟩ h0 h1, chain_next m c n h h0]
        dsimp only
        rw [sout_C]
        exact congrArg (step _ _ _ _) (outsAt_snd c n (Nat.lt_of_succ_lt h))
      · rw [outsAt0_B m c ⟨n + 1, h⟩ h0 h1, chain_next m c n h h0]
        dsimp only
        rw [sout_B]
        exact congrArg (step _ _ _ _) (outsAt_snd c n (Nat.lt_of_succ_lt h))

/-- At the last tile of a batch the output block holds the lane summary of the finished accumulator. -/
theorem outsAt_fst (c : Dev nD) (n : ℕ) (h : n < cfg0.N) (h1 : n % 32 = 31) :
    (outsAt0 m c n h).1 = k0_pay3 (chain m c n h) := by
  cases n with
  | zero => exact absurd h1 (by decide)
  | succ n =>
    have h0 : ¬(n + 1) % 32 = 0 := by omega
    rw [outsAt0_C m c ⟨n + 1, h⟩ h0 h1, chain_next m c n h h0]
    dsimp only
    rw [out_C]
    exact congrArg (fun acc => k0_pay3 (step _ _ _ _ acc)) (outsAt_snd m c n (Nat.lt_of_succ_lt h))

end Cert.KernelIdeal.Hand

end
-- ==== Proof.KernelArray.lean ====
/-
  The output array after the run.

  The [4,8,128] output has one block per batch; the block of batch b is written back once, after the batch's last tile
  (point 32 b + 31), and holds the lane summary of the finished accumulator. The four blocks tile the array, so after
  the run entry (b, a, l) of the array is entry (a, l) of that summary.
-/
import proofs.«176780_j25563645346550_2_alg».proof.Proof.Accumulate
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ)

theorem chain_congr (c : Dev nD) {n n' : ℕ} (e : n = n') (h : n < cfg0.N) (h' : n' < cfg0.N) :
    chain m c n h = chain m c n' h' := by
  subst e; rfl

theorem lastLt (b : ℕ) (hb : b < 4) : 32 * b + 31 < cfg0.N := by
  have : cfg0.N = 128 := N_0
  omega

/-- What the output array ends holding: at (b, a, l) the lane summary, at (a, l), of batch b's finished accumulator. -/
def summary (c : Dev nD) : Buf (Elt F) ((c : Thread nD τ).loc main_v12) := fun i =>
  k0_pay3 (chain m c (32 * (i 0).val + 31) (lastLt _ (i 0).isLt))
    (ix3 (0 : Fin 1) (⟨(i 1).val, (i 1).isLt⟩ : Fin 8) (⟨(i 2).val, (i 2).isLt⟩ : Fin 128))

theorem summary_apply (c : Dev nD) (b : Fin 4) (a : Fin 8) (l : Fin 128) :
    summary m c (ix3 b a l) = k0_pay3 (chain m c (32 * b.val + 31) (lastLt _ b.isLt)) (ix3 (0 : Fin 1) a l) := rfl

/-- At the last point of its batch, an index of the array in that batch reads the summary of the point's accumulator. -/
theorem summary_at (c : Dev nD) (t : Fin cfg0.N) (h31 : t.val % 32 = 31) (i : S4x8x128.Idx) (hi : (i 0).val = t.val / 32) :
    summary m c i = k0_pay3 (chain m c t.val t.isLt)
      (ix3 (0 : Fin 1) (⟨(i 1).val, (i 1).isLt⟩ : Fin 8) (⟨(i 2).val, (i 2).isLt⟩ : Fin 128)) := by
  unfold summary
  exact congrArg (fun z => k0_pay3 z _) (chain_congr m c (by omega) _ _)

/-- The output window's block index: the batch. -/
theorem idx_out : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)
/-- Its blocks are never clipped. -/
theorem xsize_out : ∀ t : Fin cfg0.N, win0_3.xsize (grid0.coords t) (0 : Fin 3) = 1 ∧ win0_3.xsize (grid0.coords t) (1 : Fin 3) = 8 ∧ win0_3.xsize (grid0.coords t) (2 : Fin 3) = 128 :=
  (by decide +kernel : ∀ t : Fin grid0.N, win0_3.xsize (grid0.coords t) (0 : Fin 3) = 1 ∧ win0_3.xsize (grid0.coords t) (1 : Fin 3) = 8 ∧ win0_3.xsize (grid0.coords t) (2 : Fin 3) = 128)

/-- The block written back at the last point of a batch is that batch's block of the summary. -/
theorem flushed_eq (c : Dev nD) (t : Fin cfg0.N) (hf : (cfg0.win 3).flush t = true) :
    (dats m 0 c).flushed 3 t = ((cfg0.win 3).blk t).view.read (Elt F) (summary m c) := by
  have h31 : t.val % 32 = 31 := (flush0_3 t).mp hf
  show (cfg0.win 3).cut (grid0.coords t) ((dats m 0 c).after 3 t) = _
  rw [after0_3, outsAt_fst m c t.val t.isLt h31]
  funext y
  rw [View.read_apply]
  have h0 : (y 0).val < 1 := lt_of_lt_of_eq (y 0).isLt (xsize_out t).1
  have e0 : ((((cfg0.win 3).blk t).view.emb y) 0).val = t.val / 32 := by
    show win0_3.index t (0 : Fin 3) * 1 + 1 * (y 0).val = _
    rw [(idx_out t).1]; omega
  show k0_pay3 (chain m c t.val t.isLt) ((cfg0.win 3).xinj (grid0.coords t) y) = summary m c (((cfg0.win 3).blk t).view.emb y)
  rw [summary_at m c t h31 _ e0]
  refine congrArg (k0_pay3 (chain m c t.val t.isLt)) ?_
  funext a
  apply Fin.ext
  match a with
  | ⟨0, _⟩ => show (y 0).val = 0; omega
  | ⟨1, _⟩ => show (y 1).val = win0_3.index t (1 : Fin 3) * 8 + 1 * (y 1).val; rw [(idx_out t).2.1]; omega
  | ⟨2, _⟩ => show (y 2).val = win0_3.index t (2 : Fin 3) * 128 + 1 * (y 2).val; rw [(idx_out t).2.2]; omega

/-- So the output array ends holding the summary: batch b's block is written at point 32 b + 31. -/
theorem final_out (c : Dev nD) : (dats m 0 c).arrAt 3 cfg0.N = summary m c :=
  (dats m 0 c).arrAt_eq_of_cover 3 (summary m c) (flushed_eq m c) fun i => by
    have hb : (i 0).val < 4 := (i 0).isLt
    have ha : (i 1).val < 8 := (i 1).isLt
    have hl : (i 2).val < 128 := (i 2).isLt
    refine ⟨⟨32 * (i 0).val + 31, lastLt _ hb⟩, (flush0_3 _).mpr (by show (32 * (i 0).val + 31) % 32 = 31; omega), ?_⟩
    show i ∈ ((View.whole main_v12).slice (win0_3.rect ⟨32 * (i 0).val + 31, lastLt _ hb⟩)).set
    rw [View.set_slice_whole, Rect.mem_set_unit]
    intro a
    match a with
    | ⟨0, _⟩ =>
      show win0_3.index ⟨32 * (i 0).val + 31, lastLt _ hb⟩ (0 : Fin 3) * win0_3.size (0 : Fin 3) ≤ (i 0 : Nat) ∧ (i 0 : Nat) < win0_3.index ⟨32 * (i 0).val + 31, lastLt _ hb⟩ (0 : Fin 3) * win0_3.size (0 : Fin 3) + win0_3.xsize (grid0.coords ⟨32 * (i 0).val + 31, lastLt _ hb⟩) (0 : Fin 3)
      rw [(idx_out _).1, (xsize_out _).1, show win0_3.size (0 : Fin 3) = 1 from rfl]
      show (32 * (i 0).val + 31) / 32 * 1 ≤ (i 0 : Nat) ∧ (i 0 : Nat) < (32 * (i 0).val + 31) / 32 * 1 + 1
      omega
    | ⟨1, _⟩ =>
      show win0_3.index ⟨32 * (i 0).val + 31, lastLt _ hb⟩ (1 : Fin 3) * win0_3.size (1 : Fin 3) ≤ (i 1 : Nat) ∧ (i 1 : Nat) < win0_3.index ⟨32 * (i 0).val + 31, lastLt _ hb⟩ (1 : Fin 3) * win0_3.size (1 : Fin 3) + win0_3.xsize (grid0.coords ⟨32 * (i 0).val + 31, lastLt _ hb⟩) (1 : Fin 3)
      rw [(idx_out _).2.1, (xsize_out _).2.1]
      omega
    | ⟨2, _⟩ =>
      show win0_3.index ⟨32 * (i 0).val + 31, lastLt _ hb⟩ (2 : Fin 3) * win0_3.size (2 : Fin 3) ≤ (i 2 : Nat) ∧ (i 2 : Nat) < win0_3.index ⟨32 * (i 0).val + 31, lastLt _ hb⟩ (2 : Fin 3) * win0_3.size (2 : Fin 3) + win0_3.xsize (grid0.coords ⟨32 * (i 0).val + 31, lastLt _ hb⟩) (2 : Fin 3)
      rw [(idx_out _).2.2, (xsize_out _).2.2]
      omega

end Cert.KernelIdeal.Hand

end
-- ==== Proof.Shared.lean ====
/-
  What the two programs have in common, and the sums the proof compares.

  Both programs turn the logits into cluster assignments by the same row softmax, and both end with the same
  orthogonality term ‖SᵀS − I‖ / 4 added to the negated ratio trace / total of the cut matrices. They differ only in how
  the cut matrix of a batch is associated: the reference forms (Sᵀ W) S, the kernel sums Sᵀ (W S) over row tiles. The
  common stages are written here once, as functions of the arrays; so are the two associations, entry by entry, and the
  trace and the total of a family of 16 × 16 matrices.
-/
import Idealize.ShloMosaic.PureOps
import Idealize.ShloMosaic.PureOps.Ideal
import Idealize.ShloMosaic.Lib.ValueIdx

noncomputable section

namespace Cert.Shared

open Idealize.ShloMosaic Idealize.ShloMosaic.ValueIdx

abbrev SL : Shape := ⟨3, ![4, 8192, 16]⟩      -- logits and assignments
abbrev SW : Shape := ⟨3, ![4, 8192, 8192]⟩    -- affinities
abbrev S0 : Shape := ⟨0, ![]⟩
abbrev SR : Shape := ⟨2, ![4, 8192]⟩
abbrev SR1 : Shape := ⟨3, ![4, 8192, 1]⟩
abbrev SC : Shape := ⟨3, ![4, 16, 16]⟩
abbrev SE : Shape := ⟨2, ![16, 16]⟩
abbrev SE1 : Shape := ⟨3, ![1, 16, 16]⟩

/-- The row softmax of the logits, stage by stage as both programs apply it: the row maximum (started from −∞),
    the exponentials of the differences, their row sum (started from 0), the quotient. -/
def softmax (x : FVec Ideal SL .f32) : FVec Ideal SL .f32 :=
  let mx : FVec Ideal SR .f32 :=
    maximumf (broadcastInDim SR ![] (by decide) (constant S0 .f32 0xFF800000#32 : FVec Ideal S0 .f32))
      (Host.reduce FloatOps.maximumf x (constant S0 .f32 0xFF800000#32 : FVec Ideal S0 .f32) (by decide : SL.ReducesTo [2] SR) (by decide))
  let e : FVec Ideal SL .f32 :=
    Host.exp (subf x (broadcastInDim SL ![0, 1, 2] (by decide) (broadcastInDim SR1 ![0, 1] (by decide) mx : FVec Ideal SR1 .f32)))
  let z : FVec Ideal SR .f32 :=
    Host.reduceAdd e (constant S0 .f32 0x00000000#32 : FVec Ideal S0 .f32) (by decide : SL.ReducesTo [2] SR) (by decide)
  Host.divf e (broadcastInDim SL ![0, 1, 2] (by decide) (broadcastInDim SR1 ![0, 1] (by decide) z : FVec Ideal SR1 .f32))

/-- Sᵀ S per batch: contraction over the 8192 rows. -/
def dotSS : DotDims SL SL SC where
  lhsContracting := [1]
  rhsContracting := [1]
  lhsNonContracting := [2]
  rhsNonContracting := [2]
  lhsBatch := [0]
  rhsBatch := [0]
  wf := by decide

/-- The orthogonality term ‖SᵀS − I‖_F / 4 as both programs compute it. -/
def ortho (s : FVec Ideal SL .f32) : FVec Ideal S0 .f32 :=
  let eye : FVec Ideal SE .f32 :=
    uitofp .f32 (cmpi .eq (addi (iotaInDim SE 32 0) (broadcastInDim SE ![] (by decide) (constantI S0 32 0#32))) (iotaInDim SE 32 1))
  let d : FVec Ideal SC .f32 :=
    subf (Host.dotGeneral dotSS none s s)
      (broadcastInDim SC ![0, 1, 2] (by decide) (broadcastInDim SE1 ![1, 2] (by decide) eye : FVec Ideal SE1 .f32))
  Host.divf
    (Host.sqrt (Host.reduceAdd (mulf d d) (constant S0 .f32 0x00000000#32 : FVec Ideal S0 .f32) (by decide : SC.ReducesTo [0, 1, 2] S0) (by decide)))
    (constant S0 .f32 0x40800000#32)

/-- The loss from the trace total `T`, the grand total `C` and the assignments: −(T / C) + ortho. -/
def lossOf (T C : FVec Ideal S0 .f32) (s : FVec Ideal SL .f32) : FVec Ideal S0 .f32 :=
  addf (Host.negf (Host.divf T C)) (ortho s)

/-- A three-axis array by coordinates. -/
def arr3 {a b c : Nat} {φ : FTy} (x : FVec Ideal ⟨3, ![a, b, c]⟩ φ) (i : Fin a) (j : Fin b) (k : Fin c) : EReal := x (ix3 i j k)

/-- The reference's association of the cut matrix: entry (k, j) of (Sᵀ W) S. -/
def cutRef (s : Fin 4 → Fin 8192 → Fin 16 → EReal) (w : Fin 4 → Fin 8192 → Fin 8192 → EReal) (b : Fin 4) (k j : Fin 16) : EReal :=
  ∑ q : Fin 8192, (∑ n : Fin 8192, s b n k * w b n q) * s b q j

/-- The kernel's association: entry (k, j) of Sᵀ (W S). -/
def cutKer (s : Fin 4 → Fin 8192 → Fin 16 → EReal) (w : Fin 4 → Fin 8192 → Fin 8192 → EReal) (b : Fin 4) (k j : Fin 16) : EReal :=
  ∑ n : Fin 8192, s b n k * ∑ q : Fin 8192, w b n q * s b q j

/-- The sum of the traces of a family of four 16 × 16 matrices. -/
def traceOf (cut : Fin 4 → Fin 16 → Fin 16 → EReal) : EReal := ∑ b : Fin 4, ∑ k : Fin 16, cut b k k

/-- The sum of all their entries. -/
def totalOf (cut : Fin 4 → Fin 16 → Fin 16 → EReal) : EReal := ∑ b : Fin 4, ∑ k : Fin 16, ∑ j : Fin 16, cut b k j

end Cert.Shared

end
-- ==== Proof.Blocks.lean ====
/-
  What the kernel's windows hold.

  The region finds W as launched, and the assignments S = softmax(logits) twice: once as computed and once through the
  change of format to bf16, which on the extended reals changes nothing. At grid point t = 32 b + j the W window holds
  rows 256 j … 256 j + 255 of batch b, both assignment windows hold the whole batch b, and the body reads rows
  256 j … 256 j + 255 of the f32 copy.
-/
import proofs.«176780_j25563645346550_2_alg».proof.Proof.KernelPieces
import proofs.«176780_j25563645346550_2_alg».proof.Proof.Shared
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Facts₀

variable (m : (ℓ : Loc nD τ sig) → Buf (Elt Ideal) ℓ)

/-- The assignments as the region finds them: the row softmax of the logits. -/
theorem V_assign (c : Dev nD) :
    (V m c main_v10 : FVec Ideal S4x8192x16 .f32) = Cert.Shared.softmax (m ((c : Thread nD τ).loc main_arg2)) := by
  show StableHlo.after hostOps0 (fun b => m (c, b)) (Proc.devRef .tc main_v10) = _
  after_results
  rfl

/-- Their bf16 copy: the same extended reals. -/
theorem V_assign16 (c : Dev nD) (i : S4x8192x16.Idx) :
    (V m c main_v11 : FVec Ideal S4x8192x16 .bf16) i = Cert.Shared.softmax (m ((c : Thread nD τ).loc main_arg2)) i := by
  have e : (V m c main_v11 : FVec Ideal S4x8192x16 .bf16)
      = truncf .bf16 (Cert.Shared.softmax (m ((c : Thread nD τ).loc main_arg2))) Facts₀.bitsLt_bf16_f32 := by
    show StableHlo.after hostOps0 (fun b => m (c, b)) (Proc.devRef .tc main_v11) = _
    after_results
    rfl
  rw [e]
  rfl

/-- Point t is tile t mod 32 of batch t / 32: the windows' block indices. -/
theorem idx_w0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, win0_0.index t (0 : Fin 3) = t.val / 32 ∧ win0_0.index t (1 : Fin 3) = t.val % 32 ∧ win0_0.index t (2 : Fin 3) = 0)
theorem idx_w1 : ∀ t : Fin cfg0.N, win0_1.index t (0 : Fin 3) = t.val / 32 ∧ win0_1.index t (1 : Fin 3) = 0 ∧ win0_1.index t (2 : Fin 3) = 0 :=
  (by decide +kernel : ∀ t : Fin grid0.N, win0_1.index t (0 : Fin 3) = t.val / 32 ∧ win0_1.index t (1 : Fin 3) = 0 ∧ win0_1.index t (2 : Fin 3) = 0)
theorem idx_w2 : ∀ t : Fin cfg0.N, win0_2.index t (0 : Fin 3) = t.val / 32 ∧ win0_2.index t (1 : Fin 3) = 0 ∧ win0_2.index t (2 : Fin 3) = 0 :=
  (by decide +kernel : ∀ t : Fin grid0.N, win0_2.index t (0 : Fin 3) = t.val / 32 ∧ win0_2.index t (1 : Fin 3) = 0 ∧ win0_2.index t (2 : Fin 3) = 0)
theorem idx_w3 : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)
/-- The row offset of the body's slice of the f32 assignments: 256 · (t mod 32). -/
theorem off_rows : ∀ t : Fin cfg0.N, k0_off1 (grid0.coords t) (0 : Fin 3) = 0 ∧ k0_off1 (grid0.coords t) (1 : Fin 3) = 256 * (t.val % 32) ∧ k0_off1 (grid0.coords t) (2 : Fin 3) = 0 :=
  (by decide +kernel : ∀ t : Fin grid0.N, k0_off1 (grid0.coords t) (0 : Fin 3) = 0 ∧ k0_off1 (grid0.coords t) (1 : Fin 3) = 256 * (t.val % 32) ∧ k0_off1 (grid0.coords t) (2 : Fin 3) = 0)

theorem lt128 (t : Fin cfg0.N) : t.val < 128 := lt_of_lt_of_eq t.isLt N_0

/-- The batch of point t. -/
def batchOf (t : Fin cfg0.N) : Fin 4 := ⟨t.val / 32, by have := lt128 t; omega⟩
/-- Row 256 · (t mod 32) + r of the batch: row r of tile t mod 32. -/
def rowOf (t : Fin cfg0.N) (r : Fin 256) : Fin 8192 := ⟨256 * (t.val % 32) + r.val, by have := r.isLt; omega⟩

/-- The W window at point t, row r, column q: W of the batch at the tile's row. -/
theorem iblk0_apply (c : Dev nD) (t : Fin cfg0.N) (r : Fin 256) (q : Fin 8192) :
    (iblk m c 0 t : Vec Ideal S1x256x8192 .f32) (ix3 0 r q)
      = m ((c : Thread nD τ).loc main_arg1) (ix3 (batchOf t) (rowOf t r) q) := by
  unfold iblk
  rw [View.read_apply]
  show V m c main_arg1 _ = _
  rw [V_main_arg1]
  refine congrArg (m ((c : Thread nD τ).loc main_arg1)) ?_
  funext a
  apply Fin.ext
  match a with
  | ⟨0, _⟩ => show win0_0.index t (0 : Fin 3) * 1 + 1 * 0 = t.val / 32; rw [(idx_w0 t).1]; omega
  | ⟨1, _⟩ => show win0_0.index t (1 : Fin 3) * 256 + 1 * r.val = 256 * (t.val % 32) + r.val; rw [(idx_w0 t).2.1]; omega
  | ⟨2, _⟩ => show win0_0.index t (2 : Fin 3) * 8192 + 1 * q.val = q.val; rw [(idx_w0 t).2.2]; omega

/-- The bf16 assignment window at point t: the batch's assignments. -/
theorem iblk1_apply (c : Dev nD) (t : Fin cfg0.N) (q : Fin 8192) (j : Fin 16) :
    (iblk m c 1 t : Vec Ideal S1x8192x16 .bf16) (ix3 0 q j)
      = Cert.Shared.softmax (m ((c : Thread nD τ).loc main_arg2)) (ix3 (batchOf t) q j) := by
  unfold iblk
  rw [View.read_apply]
  show V m c main_v11 _ = _
  refine (V_assign16 m c _).trans ?_
  refine congrArg (Cert.Shared.softmax (m ((c : Thread nD τ).loc main_arg2))) ?_
  funext a
  apply Fin.ext
  match a with
  | ⟨0, _⟩ => show win0_1.index t (0 : Fin 3) * 1 + 1 * 0 = t.val / 32; rw [(idx_w1 t).1]; omega
  | ⟨1, _⟩ => show win0_1.index t (1 : Fin 3) * 8192 + 1 * q.val = q.val; rw [(idx_w1 t).2.1]; omega
  | ⟨2, _⟩ => show win0_1.index t (2 : Fin 3) * 16 + 1 * j.val = j.val; rw [(idx_w1 t).2.2]; omega

/-- The f32 assignment window at point t: the batch's assignments. -/
theorem iblk2_apply (c : Dev nD) (t : Fin cfg0.N) (n : Fin 8192) (k : Fin 16) :
    (iblk m c 2 t : Vec Ideal S1x8192x16 .f32) (ix3 0 n k)
      = Cert.Shared.softmax (m ((c : Thread nD τ).loc main_arg2)) (ix3 (batchOf t) n k) := by
  unfold iblk
  rw [View.read_apply]
  show V m c main_v10 _ = _
  rw [V_assign]
  refine congrArg (Cert.Shared.softmax (m ((c : Thread nD τ).loc main_arg2))) ?_
  funext a
  apply Fin.ext
  match a with
  | ⟨0, _⟩ => show win0_2.index t (0 : Fin 3) * 1 + 1 * 0 = t.val / 32; rw [(idx_w2 t).1]; omega
  | ⟨1, _⟩ => show win0_2.index t (1 : Fin 3) * 8192 + 1 * n.val = n.val; rw [(idx_w2 t).2.1]; omega
  | ⟨2, _⟩ => show win0_2.index t (2 : Fin 3) * 16 + 1 * k.val = k.val; rw [(idx_w2 t).2.2]; omega

/-- The body's slice of an assignment block at point t: row r of the slice is row 256 (t mod 32) + r of the block. -/
theorem tileRows_apply (t : Fin cfg0.N) (x2 : Vec Ideal S1x8192x16 .f32) (r : Fin 256) (k : Fin 16) :
    tileRows (grid0.coords t) x2 (ix3 0 r k) = x2 (ix3 0 (rowOf t r) k) := by
  show x2 ((Rect.unit (s := S1x8192x16) (k0_off1 (grid0.coords t)) S1x256x16.size (Facts₀.k0_off1_inb (grid0.coords t))).idx (ix3 0 r k)) = _
  refine congrArg x2 ?_
  funext a
  apply Fin.ext
  match a with
  | ⟨0, _⟩ => show k0_off1 (grid0.coords t) (0 : Fin 3) + 1 * 0 = 0; rw [(off_rows t).1]
  | ⟨1, _⟩ => show k0_off1 (grid0.coords t) (1 : Fin 3) + 1 * r.val = 256 * (t.val % 32) + r.val; rw [(off_rows t).2.1]; omega
  | ⟨2, _⟩ => show k0_off1 (grid0.coords t) (2 : Fin 3) + 1 * k.val = k.val; rw [(off_rows t).2.2]; omega

end Cert.KernelIdeal.Hand

end
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.LibAxisLayout.lean ====
/-
  Three-axis layout operations and single-axis reductions read at an index given by coordinates.

  A reduction of an [a, b, c] array along its middle or last axis leaves an [a, c] or [a, b] array; kept as a
  unit axis it is re-laid as [a, 1, c] or [a, b, 1] and broadcast back to [a, b, c]. Read at (i, j, k) each cast
  returns the operand's entry at the coordinates that remain — a unit coordinate is zero, so the row-major
  position is unchanged — and each broadcast reads the unit axis at 0 and the other axes at the result's own
  coordinates. A reduction over one axis, read at the kept coordinates, ranges over the dropped coordinate put
  back in its place.
-/
import Idealize.ShloMosaic.Lib.Pipeline.Value
import Idealize.ShloMosaic.Lib.ValueIdx
import Idealize.ShloMosaic.PureOps.Ideal.Laws

namespace Cert.Lib.AxisLayout

open Idealize.ShloMosaic Idealize.ShloMosaic.ValueIdx

variable {α : Type}

/-- Two indices of a one-axis shape with the same coordinate are equal. -/
theorem ext1 {n0 : ℕ} {f g : (⟨1, ![n0]⟩ : Shape).Idx} (h0 : (f 0).val = (g 0).val) : f = g :=
  funext fun a => Fin.ext (by match a with | ⟨0, _⟩ => exact h0)

/-- Two indices of a two-axis shape with the same coordinates are equal. -/
theorem ext2 {n0 n1 : ℕ} {f g : (⟨2, ![n0, n1]⟩ : Shape).Idx} (h0 : (f 0).val = (g 0).val) (h1 : (f 1).val = (g 1).val) : f = g :=
  funext fun a => Fin.ext (by match a with | ⟨0, _⟩ => exact h0 | ⟨1, _⟩ => exact h1)

/-- Two indices of a three-axis shape with the same coordinates are equal. -/
theorem ext3 {n0 n1 n2 : ℕ} {f g : (⟨3, ![n0, n1, n2]⟩ : Shape).Idx} (h0 : (f 0).val = (g 0).val) (h1 : (f 1).val = (g 1).val)
    (h2 : (f 2).val = (g 2).val) : f = g :=
  funext fun a => Fin.ext (by match a with | ⟨0, _⟩ => exact h0 | ⟨1, _⟩ => exact h1 | ⟨2, _⟩ => exact h2)

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, 1, c] array cast to [a, c] reads, at (i, k), the operand at (i, 0, k). -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Dropping the middle axis of [a, b, c]: the kept index (i, k) with coordinate j put back is (i, j, k). -/
theorem lift_abc_mid {a b c : ℕ} (h : (⟨3, ![a, b, c]⟩ : Shape).Reduces [1] (⟨2, ![a, c]⟩ : Shape)) (i : Fin a) (k : Fin c)
    (j : Fin ((⟨3, ![a, b, c]⟩ : Shape).size 1)) : h.lift (ix2 i k) j = ix3 i (⟨j.val, j.isLt⟩ : Fin b) k := by
  funext d; apply Fin.ext
  fin_cases d <;> rfl

/-- Dropping the last axis of [a, b, c]: the kept index (i, j) with coordinate k put back is (i, j, k). -/
theorem lift_abc_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- Dropping the last axis of [a, b]: the kept index i with coordinate k put back is (i, k). -/
theorem lift_ab_last {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext d; apply Fin.ext
  fin_cases d <;> rfl

variable {φ : FTy}

/-- A sum along the middle axis of [a, b, c], at (i, k), is the sum over j of the entries (i, j, k). -/
theorem sum_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_abc_mid h i k j))

/-- A sum along the last axis of [a, b, c], at (i, j), is the sum over k of the entries (i, j, k). -/
theorem sum_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_abc_last h i j k))

/-- A sum along the last axis of [a, b], at i, is the sum over k of the entries (i, k). -/
theorem sum_row_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

/-- A maximum along the middle axis of [a, b, c], at (i, k): the fold of max from the start value over the entries (i, j, k). -/
theorem max_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) (fun j => src (ix3 i j k)) :=
  (Ideal.multiReduction_maximumf_single src acc h hφ hacc (ix2 i k)).trans
    (congrArg (fun f => (Finset.univ : Finset (Fin b)).fold max (Ideal.ofBits φ acc) f)
      (funext fun j => congrArg src (lift_abc_mid h i k j)))

/-- A maximum along the last axis of [a, b, c], at (i, j): the fold of max from the start value over the entries (i, j, k). -/
theorem max_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_abc_last h i j k)))

end Cert.Lib.AxisLayout
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Payloads.lean ====
/-
  The three pure values the tile body stores, each read at one index, over the extended reals.

  The first is the zero matrix the accumulator starts from. The second is the accumulator plus the tile's
  contribution: with W the tile's 256 rows of the weight matrix, S the whole 8192 x 16 softmax matrix and
  R the tile's own 256 rows of S, it adds Rᵀ (W S), so entry (k, j) gains
  ∑ r, R (r, k) * ∑ q, W (r, q) * S (q, j). The third lays the accumulator's trace and its grand total
  into lanes 0 and 1 of sublane 0 of an otherwise zero 1 x 8 x 128 block: the trace is taken as the total of
  the accumulator times the 0/1 diagonal mask, and x * 1 = x, x * 0 = 0 hold for every extended real, so no
  finiteness is needed.
-/
import proofs.«176780_j25563645346550_2_alg».proof.Proof.Gen.KernelIdeal.Skeleton
import proofs.«176780_j25563645346550_2_alg».proof.Proof.LibPlainMatmul
import proofs.«176780_j25563645346550_2_alg».proof.Proof.LibAxisLayout
import proofs.«176780_j25563645346550_2_alg».proof.Proof.LibKeepdims
import Idealize.ShloMosaic.Lib.ValueLayout
import Idealize.ShloMosaic.Lib.Pipeline.Value
import Idealize.ShloMosaic.Lib.ValueIdx
import Idealize.ShloMosaic.Lib.Affine
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- The starting value of the accumulator: every entry is zero. -/
theorem pay1_apply (k j : Fin 16) : k0_pay1 (F := Ideal) (ix2 k j) = 0 := by
  unfold k0_pay1
  show shapeCast S16x16 (broadcast S16x16 (Scalar.ofBits (F := Ideal) .f32 0x00000000#32)) _ (ix2 k j) = 0
  rw [shapeCast_self]
  exact Ideal.ofBits_zero_f32

/-- One tile's update of the accumulator: entry (k, j) gains ∑ r, R (r, k) * ∑ q, W (r, q) * S (q, j). -/
theorem pay2_apply (v3 : Vec Ideal S1x256x8192 .f32) (v6 : Vec Ideal S1x8192x16 .bf16) (v12 : Vec Ideal S1x256x16 .f32)
    (v16 : Vec Ideal S16x16 .f32) (k j : Fin 16) :
    k0_pay2 v3 v6 v12 v16 (ix2 k j)
      = v16 (ix2 k j) + ∑ r : Fin 256, v12 (ix3 0 r k) * ∑ q : Fin 8192, v3 (ix3 0 r q) * v6 (ix3 0 q j) := by
  unfold k0_pay2
  dsimp only
  rw [shapeCast_self]
  refine congrArg (v16 (ix2 k j) + ·) ?_
  refine (PlainMatmul.matmul_zero_apply dot_S16x256_S256x16_S16x16_1_0_0_1_n_n rfl rfl rfl rfl rfl rfl (some .fp32) _ _ k j).trans ?_
  refine Finset.sum_congr rfl fun r _ => ?_
  refine congrArg₂ (· * ·) ?_ ?_
  · exact (transpose_ix2_apply _ _ k r).trans (shapeCast_1ab_ab_apply v12 _ r k)
  · refine (PlainMatmul.matmul_zero_apply dot_S256x8192_S8192x16_S256x16_1_0_0_1_n_n rfl rfl rfl rfl rfl rfl none _ _ r j).trans ?_
    refine Finset.sum_congr rfl fun q _ => ?_
    refine congrArg₂ (· * ·) ?_ ?_
    · exact shapeCast_1ab_ab_apply v3 _ r q
    · exact shapeCast_1ab_ab_apply v6 _ q j

/-! ## The pieces of the third value -/

/-- Two naturals below 2 ^ 32, as 32-bit words, compare equal exactly when they are equal. -/
theorem cmpi_eq_ofNat (n m : Nat) (hn : n < 2 ^ 32) (hm : m < 2 ^ 32) :
    IntOp.cmpi .eq (BitVec.ofNat 32 n) (BitVec.ofNat 32 m) = if n = m then 1#1 else 0#1 := by
  by_cases h : n = m
  · rw [if_pos h]
    exact IntOp.cmpi_eq.mpr (by rw [h])
  · rw [if_neg h]
    refine eq_zero_of_ne_one fun h1 => h ?_
    have e := congrArg BitVec.toNat (IntOp.cmpi_eq.mp h1)
    rw [BitVec.toNat_ofNat, BitVec.toNat_ofNat, Nat.mod_eq_of_lt hn, Nat.mod_eq_of_lt hm] at e
    exact e

/-- The diagonal mask: 1 at (k, k), 0 elsewhere. -/
theorem diag_apply (h0 : S16x16.Iotas .tc 32 [0]) (h1 : S16x16.Iotas .tc 32 [1]) (hlt : 1 < 32) (k j : Fin 16) :
    (sitofp .f32 (extui 32 (cmpi .eq (iota .tc S16x16 32 [0] h0) (iota .tc S16x16 32 [1] h1)) hlt) : FVec Ideal S16x16 .f32) (ix2 k j)
      = if k = j then 1 else 0 := by
  show FloatOps.sitofp (F := Ideal) .f32
      ((IntOp.cmpi .eq (iota .tc S16x16 32 [0] h0 (ix2 k j)) (iota .tc S16x16 32 [1] h1 (ix2 k j))).setWidth 32) = _
  rw [iota_single_apply, iota_single_apply]
  show FloatOps.sitofp (F := Ideal) .f32 ((IntOp.cmpi .eq (BitVec.ofNat 32 k.val) (BitVec.ofNat 32 j.val)).setWidth 32) = _
  rw [cmpi_eq_ofNat _ _ (by omega) (by omega)]
  by_cases h : k = j
  · rw [if_pos h, if_pos (congrArg Fin.val h)]
    show (((((1#1 : BitVec 1).setWidth 32).toInt : ℝ)) : EReal) = 1
    have : ((1#1 : BitVec 1).setWidth 32).toInt = 1 := by decide
    rw [this]; simp
  · rw [if_neg h, if_neg (fun e => h (Fin.ext e))]
    show (((((0#1 : BitVec 1).setWidth 32).toInt : ℝ)) : EReal) = 0
    have : ((0#1 : BitVec 1).setWidth 32).toInt = 0 := by decide
    rw [this]; simp

/-- Dropping the first axis of [a, b]: the kept index j with coordinate k put back is (k, j). -/
theorem lift_ab_first {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext d; apply Fin.ext
  fin_cases d <;> rfl

/-- A sum along the first axis of [a, b], at j, is the sum over k of the entries (k, j). -/
theorem sum_col_apply {φ : FTy} {a b : ℕ} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_ab_first h j k))

/-- The grand total of a 16 x 16 matrix as the body takes it — row sums, relaid as a column, summed to one entry,
    relaid as a 1 x 1 x 1 block and spread over the 1 x 8 x 128 block — is, at every position, ∑ k, ∑ j, x (k, j). -/
theorem total_apply (x : FVec Ideal S16x16 .f32) (hφ : FKind.Formats .f32)
    (hacc : (0x00000000#32 : BitVec (FTy.bits .f32)) = FKind.add.neutral .f32 hφ)
    (hr1 : S16x16.Reduces [1] S16) (hc1 : S16.ShapeCasts S16x1) (hr0 : S16x1.Reduces [0] S1) (hc2 : S1.ShapeCasts S1x1)
    (hc3 : S1x1.ShapeCasts S1x1x1) (hb : S1x1x1.Broadcasts S1x8x128) (a : Fin 8) (l : Fin 128) :
    broadcastTo S1x8x128
        (shapeCast S1x1x1
          (shapeCast S1x1
            (multiReduction .add [0] S1 (shapeCast S16x1 (multiReduction .add [1] S16 x 0x00000000#32 hr1 hφ hacc) hc1)
              0x00000000#32 hr0 hφ hacc) hc2) hc3) hb (ix3 0 a l)
      = ∑ k : Fin 16, ∑ j : Fin 16, x (ix2 k j) := by
  refine (broadcastTo_apply _ _ (ix3 0 a l) (ix3 (0 : Fin 1) (0 : Fin 1) (0 : Fin 1)) fun ax => ?_).trans ?_
  · match ax with
    | ⟨0, _⟩ => rfl
    | ⟨1, _⟩ => rfl
    | ⟨2, _⟩ => rfl
  refine (shapeCast_ab_1ab_apply _ _ (0 : Fin 1) (0 : Fin 1) (0 : Fin 1)).trans ?_
  refine (Cert.Lib.Keepdims.shapeCast_a_a1_apply _ _ (0 : Fin 1) (0 : Fin 1)).trans ?_
  refine (sum_col_apply _ _ _ hφ hacc (0 : Fin 1)).trans ?_
  refine Finset.sum_congr rfl fun k _ => ?_
  refine (Cert.Lib.Keepdims.shapeCast_a_a1_apply _ _ k (0 : Fin 1)).trans ?_
  exact Cert.Lib.AxisLayout.sum_row_apply _ _ _ hφ hacc k

/-- The mask "sublane 0 and lane c" of the 1 x 8 x 128 block, at (0, a, l). -/
theorem lane_mask (h1 : S1x8x128.Iotas .tc 32 [1]) (h2 : S1x8x128.Iotas .tc 32 [2]) (c : Nat) (hc : c < 2 ^ 32)
    (a : Fin 8) (l : Fin 128) :
    andi (cmpi .eq (iota .tc S1x8x128 32 [1] h1) (broadcast S1x8x128 (BitVec.ofNat 32 0)))
        (cmpi .eq (iota .tc S1x8x128 32 [2] h2) (broadcast S1x8x128 (BitVec.ofNat 32 c))) (ix3 0 a l)
      = if a.val = 0 ∧ l.val = c then 1#1 else 0#1 := by
  show IntOp.andi (IntOp.cmpi .eq (iota .tc S1x8x128 32 [1] h1 (ix3 0 a l)) (BitVec.ofNat 32 0))
      (IntOp.cmpi .eq (iota .tc S1x8x128 32 [2] h2 (ix3 0 a l)) (BitVec.ofNat 32 c)) = _
  rw [iota_single_apply, iota_single_apply]
  show IntOp.andi (IntOp.cmpi .eq (BitVec.ofNat 32 a.val) (BitVec.ofNat 32 0))
      (IntOp.cmpi .eq (BitVec.ofNat 32 l.val) (BitVec.ofNat 32 c)) = _
  rw [cmpi_eq_ofNat _ _ (by omega) (by omega), cmpi_eq_ofNat _ _ (by omega) hc]
  by_cases ha : a.val = 0 <;> by_cases hl : l.val = c
  · rw [if_pos ha, if_pos hl, if_pos ⟨ha, hl⟩]; rfl
  · rw [if_pos ha, if_neg hl, if_neg (fun h => hl h.2)]; rfl
  · rw [if_neg ha, if_pos hl, if_neg (fun h => ha h.1)]; rfl
  · rw [if_neg ha, if_neg hl, if_neg (fun h => ha h.1)]; rfl

/-- The block written at the last tile: the accumulator's trace in lane 0 and its grand total in lane 1 of
    sublane 0, zero elsewhere. -/
theorem pay3_apply (v24 : Vec Ideal S16x16 .f32) (a : Fin 8) (l : Fin 128) :
    k0_pay3 v24 (ix3 0 a l)
      = if a.val = 0 ∧ l.val = 0 then ∑ k : Fin 16, v24 (ix2 k k)
        else if a.val = 0 ∧ l.val = 1 then ∑ k : Fin 16, ∑ j : Fin 16, v24 (ix2 k j) else 0 := by
  unfold k0_pay3
  dsimp only
  rw [select_apply, select_apply, lane_mask _ _ 0 (by omega) a l, lane_mask _ _ 1 (by omega) a l]
  by_cases h0 : a.val = 0 ∧ l.val = 0
  · rw [if_pos h0, if_pos h0, select_one]
    refine (total_apply _ _ _ _ _ _ _ _ _ a l).trans ?_
    refine Finset.sum_congr rfl fun k _ => ?_
    refine (Finset.sum_congr rfl fun j _ => congrArg (v24 (ix2 k j) * ·) (diag_apply _ _ _ k j)).trans ?_
    simp only [mul_ite, mul_one, mul_zero, Finset.sum_ite_eq, Finset.mem_univ, if_true]
  · rw [if_neg h0, if_neg h0, select_zero]
    by_cases h1 : a.val = 0 ∧ l.val = 1
    · rw [if_pos h1, if_pos h1, select_one]
      exact total_apply _ _ _ _ _ _ _ _ _ a l
    · rw [if_neg h1, if_neg h1, select_zero]
      exact Ideal.ofBits_zero_f32

end Cert.KernelIdeal.Hand

end
-- ==== Proof.LibChunkedSum.lean ====
/-
  A total taken chunk by chunk.

  A sum over `n·w` terms, taken `w` terms at a time — each chunk's partial sum added onto a running total that
  starts at zero — is the same sum: addition on a commutative monoid is associative and zero is neutral, and that
  is all the argument uses, so it holds on the extended reals with their two infinities just as on the reals (no
  term is cancelled, moved across a product, or subtracted). `runningTotal g w z n` is the total after `n` chunks
  of width `w` of the terms `g 0, g 1, …` started at `z`; `runningTotal_eq_sum` says that, started at zero and
  run over all the chunks of a family indexed by `Fin N` (extended by zero), it is the family's sum.
-/
import Mathlib

namespace Cert.Lib.ChunkedSum

open Finset

variable {M : Type*} [AddCommMonoid M]

/-- The running total after `n` chunks of width `w`, started at `z`: chunk `n` contributes the terms
    `w·n, …, w·n + w − 1`. -/
def runningTotal (g : ℕ → M) (w : ℕ) (z : M) : ℕ → M
  | 0 => z
  | n + 1 => runningTotal g w z n + ∑ q : Fin w, g (w * n + q.val)

theorem runningTotal_zero (g : ℕ → M) (w : ℕ) (z : M) : runningTotal g w z 0 = z := rfl

theorem runningTotal_succ (g : ℕ → M) (w : ℕ) (z : M) (n : ℕ) :
    runningTotal g w z (n + 1) = runningTotal g w z n + ∑ q : Fin w, g (w * n + q.val) := rfl

/-- Started at zero, the running total after `n` chunks is the sum of the first `w·n` terms. -/
theorem runningTotal_eq_sum_range (g : ℕ → M) (w n : ℕ) :
    runningTotal g w 0 n = ∑ k ∈ range (w * n), g k := by
  induction n with
  | zero => simp [runningTotal]
  | succ n ih =>
    rw [runningTotal_succ, ih, Nat.mul_succ, sum_range_add]
    exact congrArg _ (Finset.sum_range fun x => g (w * n + x)).symm

/-- A family indexed by `Fin N`, extended by zero to every natural number. -/
def extend {N : ℕ} (t : Fin N → M) : ℕ → M := fun k => if h : k < N then t ⟨k, h⟩ else 0

theorem extend_of_lt {N : ℕ} (t : Fin N → M) {k : ℕ} (h : k < N) : extend t k = t ⟨k, h⟩ := dif_pos h

/-- So after all `n` chunks the running total is the whole sum over `Fin (w·n)`. -/
theorem runningTotal_eq_sum {N : ℕ} (t : Fin N → M) (w n : ℕ) (hN : w * n = N) :
    runningTotal (extend t) w 0 n = ∑ k : Fin N, t k := by
  rw [runningTotal_eq_sum_range, hN, Finset.sum_range]
  exact Finset.sum_congr rfl fun k _ => extend_of_lt t k.isLt

end Cert.Lib.ChunkedSum
-- ==== Proof.ChainValue.lean ====
/-
  The finished accumulator is the kernel's association of the cut matrix.

  One step at point t = 32 b + j adds, at entry (k, l), the tile's partial sum
      ∑_{r < 256} S(b, 256 j + r, k) · ∑_q W(b, 256 j + r, q) · S(b, q, l)
  to the accumulator, which starts from zero at j = 0. After the j-th tile the accumulator is therefore the running
  total of the 8192 row terms taken 256 at a time, and after the last tile it is their whole sum: entry (k, l) of
  Sᵀ (W S). Only associativity of addition is used here.
-/
import proofs.«176780_j25563645346550_2_alg».proof.Proof.Accumulate
import proofs.«176780_j25563645346550_2_alg».proof.Proof.Blocks
import proofs.«176780_j25563645346550_2_alg».proof.Proof.Payloads
import proofs.«176780_j25563645346550_2_alg».proof.Proof.LibChunkedSum

noncomputable section

open Idealize.ShloMosaic Idealize.ShloMosaic.TcCoe Idealize.SL.Sem Idealize.ShloMosaic.ValueIdx
open Cert.Lib.ChunkedSum

namespace Cert.KernelIdeal.Hand

open Cert.KernelIdeal Cert.KernelIdeal.Gen

variable (m : (ℓ : Loc nD τ sig) → Buf (Elt Ideal) ℓ)

/-- The assignments and the affinities of core c by coordinates. -/
abbrev sOf (c : Dev nD) : Fin 4 → Fin 8192 → Fin 16 → EReal :=
  Cert.Shared.arr3 (Cert.Shared.softmax (m ((c : Thread nD τ).loc main_arg2)))
abbrev wOf (c : Dev nD) : Fin 4 → Fin 8192 → Fin 8192 → EReal :=
  Cert.Shared.arr3 (a := 4) (b := 8192) (c := 8192) (φ := .f32) (m ((c : Thread nD τ).loc main_arg1))

/-- Row n's term of entry (k, l) of Sᵀ (W S) in batch b. -/
def rowTerm (c : Dev nD) (b : Fin 4) (k l : Fin 16) (n : Fin 8192) : EReal :=
  sOf m c b n k * ∑ q : Fin 8192, wOf m c b n q * sOf m c b q l

/-- One step at point t adds the tile's 256 row terms. -/
theorem stepAt_apply (c : Dev nD) (t : Fin cfg0.N) (acc : Vec Ideal S16x16 .f32) (k l : Fin 16) :
    stepAt m c t acc (ix2 k l)
      = acc (ix2 k l) + ∑ r : Fin 256, extend (rowTerm m c (batchOf t) k l) (256 * (t.val % 32) + r.val) := by
  show k0_pay2 _ _ _ _ (ix2 k l) = _
  rw [pay2_apply]
  refine congrArg (acc (ix2 k l) + ·) (Finset.sum_congr rfl fun r _ => ?_)
  rw [extend_of_lt (rowTerm m c (batchOf t) k l) (k := 256 * (t.val % 32) + r.val) (by have := r.isLt; omega)]
  rw [tileRows_apply, iblk2_apply]
  refine congrArg (_ * ·) (Finset.sum_congr rfl fun q _ => ?_)
  rw [iblk0_apply, iblk1_apply]
  rfl

/-- The accumulator after point n, at (k, l): the running total of the batch's row terms after (n mod 32) + 1 tiles. -/
theorem chain_apply (c : Dev nD) (k l : Fin 16) : ∀ (n : ℕ) (h : n < cfg0.N),
    chain m c n h (ix2 k l)
      = runningTotal (extend (rowTerm m c (batchOf ⟨n, h⟩) k l)) 256 0 (n % 32 + 1)
  | 0, h => by
    rw [chain_zero, stepAt_apply, pay1_apply]
    rfl
  | n + 1, h => by
    by_cases h0 : (n + 1) % 32 = 0
    · rw [chain_first m c n h h0, stepAt_apply, pay1_apply, h0]
      show _ = runningTotal _ 256 0 0 + _
      rw [runningTotal_zero]
    · rw [chain_next m c n h h0, stepAt_apply, chain_apply c k l n (Nat.lt_of_succ_lt h)]
      have hb : batchOf ⟨n, Nat.lt_of_succ_lt h⟩ = batchOf ⟨n + 1, h⟩ := Fin.ext (by show n / 32 = (n + 1) / 32; omega)
      have hj : (n + 1) % 32 = n % 32 + 1 := by omega
      rw [hb]
      show runningTotal _ 256 0 (n % 32 + 1) + ∑ r : Fin 256, extend _ (256 * ((n + 1) % 32) + r.val)
        = runningTotal _ 256 0 ((n + 1) % 32 + 1)
      rw [hj, runningTotal_succ _ 256 0 (n % 32 + 1)]

/-- After the last tile of batch b the accumulator is entry (k, l) of the kernel's association. -/
theorem chain_last (c : Dev nD) (b : Fin 4) (k l : Fin 16) (h : 32 * b.val + 31 < cfg0.N) :
    chain m c (32 * b.val + 31) h (ix2 k l) = Cert.Shared.cutKer (sOf m c) (wOf m c) b k l := by
  rw [chain_apply]
  have hb : batchOf ⟨32 * b.val + 31, h⟩ = b := Fin.ext (by show (32 * b.val + 31) / 32 = b.val; omega)
  have hj : (32 * b.val + 31) % 32 + 1 = 32 := by omega
  rw [hb, hj, runningTotal_eq_sum (rowTerm m c b k l) 256 32 rfl]
  rfl

end Cert.KernelIdeal.Hand

end
-- ==== Proof.CutAlgebra.lean ====
/-
  The algebra that identifies the two associations of the cut matrix.

  For finite entries, Σ_n s(n,k) · (Σ_q w(n,q) · s(q,j)) = Σ_q (Σ_n s(n,k) · w(n,q)) · s(q,j): both sides are the
  triple sum Σ_n Σ_q s(n,k) · w(n,q) · s(q,j). On the extended reals multiplication does not distribute over a sum that
  holds an infinity, so the identity is proved on the reals and carried over: every entry is the coercion of a real, a
  product of coercions is the coercion of the product, and a finite sum of coercions is the coercion of the sum.

  Then the bookkeeping of sums over a three-axis index set: such a sum is the triple sum over the coordinates, a double
  sum masked to the diagonal is the sum along the diagonal, and so the sum of all entries of a [4,16,16] array and the sum
  of its entries masked to the diagonal of the last two axes are the total and the trace total of its coordinate form.
-/
import Mathlib.Data.EReal.Basic
import Mathlib.Algebra.BigOperators.Group.Finset.Basic
import Mathlib.Algebra.BigOperators.Ring.Finset
import proofs.«176780_j25563645346550_2_alg».proof.Proof.Shared

noncomputable section

open scoped BigOperators

namespace Cert.Shared

/-- The coercion of the reals into the extended reals commutes with finite sums. -/
theorem coe_finset_sum {ι : Type*} (t : Finset ι) (f : ι → ℝ) :
    ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

/-- The two associations of a triple product sum agree on the reals. -/
theorem assoc_real {ι κ : Type*} [Fintype ι] [Fintype κ] (a : ι → ℝ) (m : ι → κ → ℝ) (c : κ → ℝ) :
    ∑ n, a n * ∑ q, m n q * c q = ∑ q, (∑ n, a n * m n q) * c q := by
  simp only [Finset.mul_sum, Finset.sum_mul]
  rw [Finset.sum_comm]
  refine Finset.sum_congr rfl fun q _ => Finset.sum_congr rfl fun n _ => ?_
  rw [mul_assoc]

/-- The two associations agree on the extended reals when every entry is finite. -/
theorem assoc_ereal {ι κ : Type*} [Fintype ι] [Fintype κ] (a : ι → EReal) (m : ι → κ → EReal) (c : κ → EReal)
    (ha : ∀ n, ∃ r : ℝ, a n = (r : EReal)) (hm : ∀ n q, ∃ r : ℝ, m n q = (r : EReal))
    (hc : ∀ q, ∃ r : ℝ, c q = (r : EReal)) :
    ∑ n, a n * ∑ q, m n q * c q = ∑ q, (∑ n, a n * m n q) * c q := by
  choose ar har using ha
  choose mr hmr using hm
  choose cr hcr using hc
  simp only [har, hmr, hcr, ← EReal.coe_mul, ← coe_finset_sum]
  rw [assoc_real]

/-- The kernel's association of the cut matrix is the reference's, for finite assignments and affinities. -/
theorem cutKer_eq_cutRef (s : Fin 4 → Fin 8192 → Fin 16 → EReal) (w : Fin 4 → Fin 8192 → Fin 8192 → EReal)
    (hs : ∀ b n k, ∃ r : ℝ, s b n k = (r : EReal)) (hw : ∀ b n q, ∃ r : ℝ, w b n q = (r : EReal)) :
    cutKer s w = cutRef s w := by
  funext b k j
  exact assoc_ereal (fun n => s b n k) (fun n q => w b n q) (fun q => s b q j)
    (fun n => hs b n k) (fun n q => hw b n q) (fun q => hs b q j)

/-! ## Sums over a three-axis index set -/

open Idealize.ShloMosaic Idealize.ShloMosaic.ValueIdx

/-- A rank-3 index set is the product of its three coordinate ranges … -/
def idxEquiv3 {a b c : Nat} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {a b c : Nat} (f : (⟨3, ![a, b, c]⟩ : Shape).Idx → M) :
    ∑ i, f i = ∑ x : Fin a, ∑ y : Fin b, ∑ z : Fin c, f (ix3 x y z) := by
  rw [← Equiv.sum_comp (idxEquiv3 (a := a) (b := b) (c := c)).symm f, Fintype.sum_prod_type]
  refine Finset.sum_congr rfl fun x _ => ?_
  rw [Fintype.sum_prod_type]
  rfl

/-- A double sum masked to the diagonal is the sum along the diagonal. -/
theorem sum_diag {M : Type*} [AddCommMonoid M] {n : Nat} (g : Fin n → Fin n → M) :
    ∑ k : Fin n, ∑ j : Fin n, (if k = j then g k j else 0) = ∑ k : Fin n, g k k := by
  refine Finset.sum_congr rfl fun k _ => ?_
  rw [Finset.sum_ite_eq]
  simp

/-- The same with the diagonal told by the coordinates' values. -/
theorem sum_diag_val {M : Type*} [AddCommMonoid M] {n : Nat} (g : Fin n → Fin n → M) :
    ∑ k : Fin n, ∑ j : Fin n, (if k.val = j.val then g k j else 0) = ∑ k : Fin n, g k k := by
  rw [← sum_diag g]
  refine Finset.sum_congr rfl fun k _ => Finset.sum_congr rfl fun j _ => ?_
  simp only [Fin.val_inj]

/-- The trace total of a family of matrices as a masked sum of all entries. -/
theorem traceOf_eq_masked (cut : Fin 4 → Fin 16 → Fin 16 → EReal) :
    traceOf cut = ∑ b : Fin 4, ∑ k : Fin 16, ∑ j : Fin 16, (if k = j then cut b k j else 0) := by
  unfold traceOf
  refine Finset.sum_congr rfl fun b _ => ?_
  rw [sum_diag (fun k j => cut b k j)]

/-- The same with the diagonal told by the coordinates' values. -/
theorem traceOf_eq_masked_val (cut : Fin 4 → Fin 16 → Fin 16 → EReal) :
    traceOf cut = ∑ b : Fin 4, ∑ k : Fin 16, ∑ j : Fin 16, (if k.val = j.val then cut b k j else 0) := by
  unfold traceOf
  refine Finset.sum_congr rfl fun b _ => ?_
  rw [sum_diag_val (fun k j => cut b k j)]

/-- The sum of all entries of a [4,16,16] array is the total of its coordinate form. -/
theorem sum_eq_totalOf {φ : FTy} (x : FVec Ideal SC φ) : ∑ i, x i = totalOf (arr3 x) := by
  rw [sum_idx3 (a := 4) (b := 16) (c := 16) x]
  rfl

/-- A sum over the [4,16,16] index set of an array masked to the diagonal of its last two axes is the trace total of
    its coordinate form. -/
theorem sum_masked_eq_traceOf {φ : FTy} (x : FVec Ideal SC φ) (f : SC.Idx → EReal)
    (hf : ∀ (b : Fin 4) (k j : Fin 16), f (ix3 b k j) = if k = j then x (ix3 b k j) else 0) :
    ∑ i, f i = traceOf (arr3 x) := by
  rw [sum_idx3 (a := 4) (b := 16) (c := 16) f, traceOf_eq_masked]
  refine Finset.sum_congr rfl fun b _ => Finset.sum_congr rfl fun k _ => Finset.sum_congr rfl fun j _ => ?_
  rw [hf b k j]
  rfl

end Cert.Shared

end
-- ==== Proof.KernelTailRead.lean ====
/-
  What the host reads of the kernel's output array.

  The kernel leaves, for each batch b, the trace of the batch's cut matrix in lane 0 and the sum of its entries in
  lane 1 of row 0 of the batch's [8,128] tile. The host cuts the [4,1,1] corner at lane l out of the [4,8,128] array,
  reshapes it to a vector of length 4 and sums the vector from zero. Read entry by entry: the corner at (b,0,0) is the
  array at (b,0,l); the reshape keeps the row-major position, so the vector at b is the corner at (b,0,0); the sum from
  zero over the one axis of the vector into a scalar is the sum over b. Hence the host's two scalars are the trace total
  and the grand total of the cut matrices.
-/
import proofs.«176780_j25563645346550_2_alg».proof.Proof.Gen.KernelIdeal
import proofs.«176780_j25563645346550_2_alg».proof.Proof.Shared
import proofs.«176780_j25563645346550_2_alg».proof.Proof.CutAlgebra
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.KernelIdeal.Hand

open Cert.KernelIdeal Cert.KernelIdeal.Facts₀ Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The [4,1,1] corner at lane `l`, reshaped to a vector, at `b`: the array at (b, 0, l). -/
theorem corner_apply (arr : FVec Ideal S4x8x128 .f32) (l : Nat) (hl : l < 128) (hsl : S4x8x128.Slices ![0, 0, l] S4x1x1)
    (b : Fin 4) :
    shapeCast S4 (extractStridedSlice S4x1x1 ![0, 0, l] arr hsl) shapeCasts_S4x1x1_S4 (ix1 b)
      = arr (ix3 b (0 : Fin 8) (⟨l, hl⟩ : Fin 128)) := by
  refine (shapeCast_apply _ _ (ix1 b) (ix3 b (0 : Fin 1) (0 : Fin 1)) ?_).trans ?_
  · rw [Shape.rowMajor_val_three, Shape.rowMajor_val_one]
    show ((b.val * 1 + 0) * 1 + 0) = b.val
    omega
  · refine extractStridedSlice_apply _ _ _ _ (ix3 b (0 : Fin 8) (⟨l, hl⟩ : Fin 128)) fun a => ?_
    match a with
    | ⟨0, _⟩ => show b.val = 0 + b.val; omega
    | ⟨1, _⟩ => show 0 = 0 + 0; rfl
    | ⟨2, _⟩ => show l = l + 0; omega

/-- The host's sum from zero of that vector: the sum over the batches of the array at (b, 0, l). -/
theorem tail_sum (arr : FVec Ideal S4x8x128 .f32) (l : Nat) (hl : l < 128) (hsl : S4x8x128.Slices ![0, 0, l] S4x1x1) :
    Host.reduceAdd (F := Ideal) (shapeCast S4 (extractStridedSlice S4x1x1 ![0, 0, l] arr hsl) shapeCasts_S4x1x1_S4)
        (constant S_ .f32 0x00000000#32) reducesTo_S4_S_d0 h_S_
      = fun _ => ∑ b : Fin 4, arr (ix3 b (0 : Fin 8) (⟨l, hl⟩ : Fin 128)) := by
  funext j
  rw [hostReduceAdd_apply, Ideal.hostReduceAdd_total _ (fun b => b.elim0), constant_apply, Ideal.ofBits_zero_f32,
    zero_add, sum_idx1]
  exact Finset.sum_congr rfl fun b _ => corner_apply arr l hl hsl b

/-- Lane 0 holds each batch's trace: the host's first scalar is the trace total. -/
theorem tail_trace (arr : FVec Ideal S4x8x128 .f32) (cut : Fin 4 → Fin 16 → Fin 16 → EReal)
    (h : ∀ b : Fin 4, arr (ix3 b 0 0) = ∑ k : Fin 16, cut b k k) :
    Host.reduceAdd (F := Ideal) (shapeCast S4 (extractStridedSlice S4x1x1 ![0, 0, 0] arr slices_S4x8x128_S4x1x1_0_0_0) shapeCasts_S4x1x1_S4)
        (constant S_ .f32 0x00000000#32) reducesTo_S4_S_d0 h_S_
      = fun _ => Cert.Shared.traceOf cut := by
  refine (tail_sum arr 0 (by decide) slices_S4x8x128_S4x1x1_0_0_0).trans ?_
  funext _
  exact Finset.sum_congr rfl fun b _ => h b

/-- Lane 1 holds each batch's sum of entries: the host's second scalar is the grand total. -/
theorem tail_total (arr : FVec Ideal S4x8x128 .f32) (cut : Fin 4 → Fin 16 → Fin 16 → EReal)
    (h : ∀ b : Fin 4, arr (ix3 b 0 1) = ∑ k : Fin 16, ∑ j : Fin 16, cut b k j) :
    Host.reduceAdd (F := Ideal) (shapeCast S4 (extractStridedSlice S4x1x1 ![0, 0, 1] arr slices_S4x8x128_S4x1x1_0_0_1) shapeCasts_S4x1x1_S4)
        (constant S_ .f32 0x00000000#32) reducesTo_S4_S_d0 h_S_
      = fun _ => Cert.Shared.totalOf cut := by
  refine (tail_sum arr 1 (by decide) slices_S4x8x128_S4x1x1_0_0_1).trans ?_
  funext _
  exact Finset.sum_congr rfl fun b _ => h b

end Cert.KernelIdeal.Hand

end
-- ==== Proof.KernelRun.lean ====
/-
  The kernel's run, read as values.

  After the region the assignments' array is untouched and the output array holds, per batch, the trace and the total
  of that batch's cut matrix Sᵀ (W S) in lanes 0 and 1. The host lines after the region sum those lanes over the batches,
  divide, negate, and add the orthogonality term of the assignments: the loss, with the kernel's association of the
  cut matrices.
-/
import proofs.«176780_j25563645346550_2_alg».proof.Proof.KernelArray
import proofs.«176780_j25563645346550_2_alg».proof.Proof.ChainValue
import proofs.«176780_j25563645346550_2_alg».proof.Proof.KernelTailRead
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The cut matrices in the kernel's association, for core c. -/
abbrev cutK (c : Dev nD) : Fin 4 → Fin 16 → Fin 16 → EReal := Cert.Shared.cutKer (sOf m c) (wOf m c)

/-- The output array after the run, as an array of extended reals. -/
abbrev outArr (c : Dev nD) : FVec Ideal S4x8x128 .f32 := summary m c

/-- Lane 0 of sublane 0 of batch b's block: the trace of the batch's cut matrix. -/
theorem summary_trace (c : Dev nD) (b : Fin 4) :
    outArr m c (ix3 b 0 0) = ∑ k : Fin 16, cutK m c b k k := by
  show @Eq EReal (summary m c (ix3 b 0 0)) _
  rw [summary_apply, pay3_apply, if_pos ⟨rfl, rfl⟩]
  exact Finset.sum_congr rfl fun k _ => chain_last m c b k k _

/-- Lane 1: its total. -/
theorem summary_total (c : Dev nD) (b : Fin 4) :
    outArr m c (ix3 b 0 1) = ∑ k : Fin 16, ∑ j : Fin 16, cutK m c b k j := by
  show @Eq EReal (summary m c (ix3 b 0 1)) _
  rw [summary_apply, pay3_apply, if_neg (by decide), if_pos ⟨rfl, rfl⟩]
  exact Finset.sum_congr rfl fun k _ => Finset.sum_congr rfl fun j _ => chain_last m c b k j _

/-- The arrays the lines after the region read: the output array at the summary, the assignments as the region found them. -/
theorem tail_out (c : Dev nD) :
    Pipeline.withArrays (cfgs 0).spec c (V0 m c) (fun w => (dats m 0 c).arrAt w (cfgs 0).N) (Proc.devRef .tc main_v12)
      = outArr m c :=
  (Pipeline.withArrays_arr spec0 launch0.win.arr_inj c _ _ 3).trans (final_out m c)

theorem tail_assign (c : Dev nD) :
    Pipeline.withArrays (cfgs 0).spec c (V0 m c) (fun w => (dats m 0 c).arrAt w (cfgs 0).N) (Proc.devRef .tc main_v10)
      = Cert.Shared.softmax (m ((c : Thread nD τ).loc main_arg2)) :=
  (Pipeline.withArrays_arr spec0 launch0.win.arr_inj c _ _ 2).trans
    (((dats m 0 c).arrAt_in 2 rfl _).trans ((A_eq m c 2).trans (V_assign m c)))

set_option maxHeartbeats 1000000 in
/-- The loss the kernel's program ends with. -/
theorem tail_loss (c : Dev nD) :
    Pipeline.afterTail₀ cfgs (dats m) 0 (V0 m) [hostOps1] c main_v35
      = Cert.Shared.lossOf (fun _ => Cert.Shared.traceOf (cutK m c)) (fun _ => Cert.Shared.totalOf (cutK m c))
          (Cert.Shared.softmax (m ((c : Thread nD τ).loc main_arg2))) := by
  unfold Pipeline.afterTail₀
  show StableHlo.after hostOps1 _ (Proc.devRef .tc main_v35) = _
  after_results_simp
  rw [tail_out, tail_assign]
  show Cert.Shared.lossOf
      (Host.reduceAdd (F := Ideal) (shapeCast S4 (extractStridedSlice S4x1x1 ![0, 0, 0] (outArr m c) Facts₀.slices_S4x8x128_S4x1x1_0_0_0) Facts₀.shapeCasts_S4x1x1_S4)
        (constant S_ .f32 0x00000000#32) Facts₀.reducesTo_S4_S_d0 Facts₀.h_S_)
      (Host.reduceAdd (F := Ideal) (shapeCast S4 (extractStridedSlice S4x1x1 ![0, 0, 1] (outArr m c) Facts₀.slices_S4x8x128_S4x1x1_0_0_1) Facts₀.shapeCasts_S4x1x1_S4)
        (constant S_ .f32 0x00000000#32) Facts₀.reducesTo_S4_S_d0 Facts₀.h_S_)
      (Cert.Shared.softmax (m ((c : Thread nD τ).loc main_arg2))) = _
  rw [tail_trace (outArr m c) (cutK m c) (summary_trace m c), tail_total (outArr m c) (cutK m c) (summary_total m c)]

/-- THE KERNEL'S RUN: every weakly fair execution ends with the assignments in the first result, the loss with the
    kernel's association in the second, and the arguments unchanged. -/
theorem run_spec :
    θ_run (defs (F := Ideal)) (onTc (τ := τ) (main (F := Ideal))) ⟨m, fun _ => 0, ρ⟩ (fun r => ∀ c : Dev nD,
      r.2.mem ((c.tc : Thread nD τ).loc main_v10) = Cert.Shared.softmax (m ((c.tc : Thread nD τ).loc main_arg2))
      ∧ r.2.mem ((c.tc : Thread nD τ).loc main_v35)
          = Cert.Shared.lossOf (fun _ => Cert.Shared.traceOf (cutK m c)) (fun _ => Cert.Shared.totalOf (cutK m c))
              (Cert.Shared.softmax (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 2).trans (((dats m 0 c).arrAt_in 2 rfl _).trans ((A_eq m c 2).trans (V_assign m c))),
     ((h c).2 main_v35 (Pipeline.mem_restRefs_of main_v35 (by decide) (by decide))).trans (tail_loss m c),
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c))),
     ((h c).2 main_arg2 (Pipeline.mem_restRefs_of main_arg2 (by decide) (by decide))).trans (W_main_arg2 m (dats m) c)⟩)
    (run_main m ρ)

end Cert.KernelIdeal.Hand

end
-- ==== Proof.RefRun.lean ====
/-
  The reference program's run, read back.

  The reference is a straight line of host operations: the row softmax of the logits, the two batched contractions
  (Sᵀ W) and ((Sᵀ W) S), the trace of each cut matrix (an outlined function: the entries off the diagonal replaced by
  zero through a mask of two iotas, then summed over both matrix axes) summed over the batch, the grand total, their
  quotient, and the orthogonality term. Its @main is the list `ops` of those operations in order, the outlined
  functions' operations at their call sites; every execution ends with each buffer at the fold of the operations over
  the launch contents, which for the two results is the composed term stated here.
-/
import proofs.«176780_j25563645346550_2_alg».proof.Proof.Gen.ReferenceIdeal
import proofs.«176780_j25563645346550_2_alg».proof.Proof.Shared
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's fifty-two operations in order: sixteen up to the cut matrices, the trace function's twelve (two of them the
    masked select of the function it calls), then the twenty-four of the two totals, the quotient and the
    orthogonality term. -/
abbrev ops : List (HloOp τ sig (Elt F)) :=
  [ nullary main_cst (constant S_ .f32 0xFF800000#32),
    binary main_arg2 main_cst main_v0 ((fun x v => Host.reduce FloatOps.maximumf x v reducesTo_S4x8192x16_S4x8192_d2 h_S_) : (⟨S4x8192x16, .f32⟩ : BufTy).Contents (Elt F) → (⟨S_, .f32⟩ : BufTy).Contents (Elt F) → (⟨S4x8192, .f32⟩ : BufTy).Contents (Elt F)),
    nullary main_cst_0 (constant S_ .f32 0xFF800000#32),
    unary main_cst_0 main_v1 (broadcastInDim S4x8192 ![] bcast_S_S4x8192 : (⟨S_, .f32⟩ : BufTy).Contents (Elt F) → (⟨S4x8192, .f32⟩ : BufTy).Contents (Elt F)),
    binary main_v1 main_v0 main_v2 (maximumf : (⟨S4x8192, .f32⟩ : BufTy).Contents (Elt F) → (⟨S4x8192, .f32⟩ : BufTy).Contents (Elt F) → (⟨S4x8192, .f32⟩ : BufTy).Contents (Elt F)),
    unary main_v2 main_v3 (broadcastInDim S4x8192x1 ![0, 1] bcast_S4x8192_S4x8192x1_0_1 : (⟨S4x8192, .f32⟩ : BufTy).Contents (Elt F) → (⟨S4x8192x1, .f32⟩ : BufTy).Contents (Elt F)),
    unary main_v3 main_v4 (broadcastInDim S4x8192x16 ![0, 1, 2] bcast_S4x8192x1_S4x8192x16_0_1_2 : (⟨S4x8192x1, .f32⟩ : BufTy).Contents (Elt F) → (⟨S4x8192x16, .f32⟩ : BufTy).Contents (Elt F)),
    binary main_arg2 main_v4 main_v5 (subf : (⟨S4x8192x16, .f32⟩ : BufTy).Contents (Elt F) → (⟨S4x8192x16, .f32⟩ : BufTy).Contents (Elt F) → (⟨S4x8192x16, .f32⟩ : BufTy).Contents (Elt F)),
    unary main_v5 main_v6 (Host.exp : (⟨S4x8192x16, .f32⟩ : BufTy).Contents (Elt F) → (⟨S4x8192x16, .f32⟩ : BufTy).Contents (Elt F)),
    nullary main_cst_1 (constant S_ .f32 0x00000000#32),
    binary main_v6 main_cst_1 main_v7 ((fun x v => Host.reduceAdd x v reducesTo_S4x8192x16_S4x8192_d2 h_S_) : (⟨S4x8192x16, .f32⟩ : BufTy).Contents (Elt F) → (⟨S_, .f32⟩ : BufTy).Contents (Elt F) → (⟨S4x8192, .f32⟩ : BufTy).Contents (Elt F)),
    unary main_v7 main_v8 (broadcastInDim S4x8192x1 ![0, 1] bcast_S4x8192_S4x8192x1_0_1 : (⟨S4x8192, .f32⟩ : BufTy).Contents (Elt F) → (⟨S4x8192x1, .f32⟩ : BufTy).Contents (Elt F)),
    unary main_v8 main_v9 (broadcastInDim S4x8192x16 ![0, 1, 2] bcast_S4x8192x1_S4x8192x16_0_1_2 : (⟨S4x8192x1, .f32⟩ : BufTy).Contents (Elt F) → (⟨S4x8192x16, .f32⟩ : BufTy).Contents (Elt F)),
    binary main_v6 main_v9 main_v10 (Host.divf : (⟨S4x8192x16, .f32⟩ : BufTy).Contents (Elt F) → (⟨S4x8192x16, .f32⟩ : BufTy).Contents (Elt F) → (⟨S4x8192x16, .f32⟩ : BufTy).Contents (Elt F)),
    binary main_v10 main_arg1 main_v11 ((fun l r => Host.dotGeneral dot_S4x8192x16_S4x8192x8192_S4x16x8192_1_1_2_2_0_0 none l r) : (⟨S4x8192x16, .f32⟩ : BufTy).Contents (Elt F) → (⟨S4x8192x8192, .f32⟩ : BufTy).Contents (Elt F) → (⟨S4x16x8192, .f32⟩ : BufTy).Contents (Elt F)),
    binary main_v11 main_v10 main_v12 ((fun l r => Host.dotGeneral dot_S4x16x8192_S4x8192x16_S4x16x16_2_1_1_2_0_0 none l r) : (⟨S4x16x8192, .f32⟩ : BufTy).Contents (Elt F) → (⟨S4x8192x16, .f32⟩ : BufTy).Contents (Elt F) → (⟨S4x16x16, .f32⟩ : BufTy).Contents (Elt F)),
    TRef.nullary main_call0.v0 (iotaInDim S16x16 32 0),
    TRef.nullary main_call0.v1 (iotaInDim S16x16 32 1),
    TRef.nullary main_call0.c (constantI S_ 32 0#32),
    TRef.unary main_call0.c main_call0.v2 (broadcastInDim S16x16 ![] bcast_S_S16x16),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S4x16x16 ![] bcast_S_S4x16x16),
    TRef.unary main_call0.v4 main_call0.call0.v0 (broadcastInDim S4x16x16 ![1, 2] bcast_S16x16_S4x16x16_1_2),
    TRef.ternary main_call0.call0.v0 (.of main_v12) main_call0.v5 main_call0.call0.v1 select,
    TRef.nullary main_call0.cst_0 (constant S_ .f32 0x00000000#32),
    TRef.binary main_call0.call0.v1 main_call0.cst_0 main_call0.v7 (fun x v => Host.reduceAdd x v reducesTo_S4x16x16_S4_d1_2 h_S_),
    nullary main_cst_2 (constant S_ .f32 0x00000000#32),
    binary main_v13 main_cst_2 main_v14 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_3 (constant S_ .f32 0x00000000#32),
    binary main_v12 main_cst_3 main_v15 ((fun x v => Host.reduceAdd x v reducesTo_S4x16x16_S_d0_1_2 h_S_) : (⟨S4x16x16, .f32⟩ : BufTy).Contents (Elt F) → (⟨S_, .f32⟩ : BufTy).Contents (Elt F) → (⟨S_, .f32⟩ : BufTy).Contents (Elt F)),
    binary main_v14 main_v15 main_v16 (Host.divf : (⟨S_, .f32⟩ : BufTy).Contents (Elt F) → (⟨S_, .f32⟩ : BufTy).Contents (Elt F) → (⟨S_, .f32⟩ : BufTy).Contents (Elt F)),
    binary main_v10 main_v10 main_v17 ((fun l r => Host.dotGeneral dot_S4x8192x16_S4x8192x16_S4x16x16_1_1_2_2_0_0 none l r) : (⟨S4x8192x16, .f32⟩ : BufTy).Contents (Elt F) → (⟨S4x8192x16, .f32⟩ : BufTy).Contents (Elt F) → (⟨S4x16x16, .f32⟩ : BufTy).Contents (Elt F)),
    nullary main_v18 (iotaInDim S16x16 32 0),
    nullary main_v19 (iotaInDim S16x16 32 1),
    nullary main_c (constantI S_ 32 0#32),
    unary main_c main_v20 (broadcastInDim S16x16 ![] bcast_S_S16x16 : (⟨S_, .i32⟩ : BufTy).Contents (Elt F) → (⟨S16x16, .i32⟩ : BufTy).Contents (Elt F)),
    binary main_v18 main_v20 main_v21 (addi : (⟨S16x16, .i32⟩ : BufTy).Contents (Elt F) → (⟨S16x16, .i32⟩ : BufTy).Contents (Elt F) → (⟨S16x16, .i32⟩ : BufTy).Contents (Elt F)),
    binary main_v21 main_v19 main_v22 (cmpi .eq : (⟨S16x16, .i32⟩ : BufTy).Contents (Elt F) → (⟨S16x16, .i32⟩ : BufTy).Contents (Elt F) → (⟨S16x16, .i1⟩ : BufTy).Contents (Elt F)),
    unary main_v22 main_v23 (uitofp .f32 : (⟨S16x16, .i1⟩ : BufTy).Contents (Elt F) → (⟨S16x16, .f32⟩ : BufTy).Contents (Elt F)),
    unary main_v23 main_v24 (broadcastInDim S1x16x16 ![1, 2] bcast_S16x16_S1x16x16_1_2 : (⟨S16x16, .f32⟩ : BufTy).Contents (Elt F) → (⟨S1x16x16, .f32⟩ : BufTy).Contents (Elt F)),
    unary main_v24 main_v25 (broadcastInDim S4x16x16 ![0, 1, 2] bcast_S1x16x16_S4x16x16_0_1_2 : (⟨S1x16x16, .f32⟩ : BufTy).Contents (Elt F) → (⟨S4x16x16, .f32⟩ : BufTy).Contents (Elt F)),
    binary main_v17 main_v25 main_v26 (subf : (⟨S4x16x16, .f32⟩ : BufTy).Contents (Elt F) → (⟨S4x16x16, .f32⟩ : BufTy).Contents (Elt F) → (⟨S4x16x16, .f32⟩ : BufTy).Contents (Elt F)),
    binary main_v26 main_v26 main_v27 (mulf : (⟨S4x16x16, .f32⟩ : BufTy).Contents (Elt F) → (⟨S4x16x16, .f32⟩ : BufTy).Contents (Elt F) → (⟨S4x16x16, .f32⟩ : BufTy).Contents (Elt F)),
    nullary main_cst_4 (constant S_ .f32 0x00000000#32),
    binary main_v27 main_cst_4 main_v28 ((fun x v => Host.reduceAdd x v reducesTo_S4x16x16_S_d0_1_2 h_S_) : (⟨S4x16x16, .f32⟩ : BufTy).Contents (Elt F) → (⟨S_, .f32⟩ : BufTy).Contents (Elt F) → (⟨S_, .f32⟩ : BufTy).Contents (Elt F)),
    unary main_v28 main_v29 (Host.sqrt : (⟨S_, .f32⟩ : BufTy).Contents (Elt F) → (⟨S_, .f32⟩ : BufTy).Contents (Elt F)),
    nullary main_cst_5 (constant S_ .f32 0x40800000#32),
    binary main_v29 main_cst_5 main_v30 (Host.divf : (⟨S_, .f32⟩ : BufTy).Contents (Elt F) → (⟨S_, .f32⟩ : BufTy).Contents (Elt F) → (⟨S_, .f32⟩ : BufTy).Contents (Elt F)),
    unary main_v16 main_v31 (Host.negf : (⟨S_, .f32⟩ : BufTy).Contents (Elt F) → (⟨S_, .f32⟩ : BufTy).Contents (Elt F)),
    binary main_v31 main_v30 main_v32 (addf : (⟨S_, .f32⟩ : BufTy).Contents (Elt F) → (⟨S_, .f32⟩ : BufTy).Contents (Elt F) → (⟨S_, .f32⟩ : BufTy).Contents (Elt F)) ]

set_option maxRecDepth 2048 in
/-- @main is that straight line: the functions' bodies unfolded at their calls, sequencing reassociated. -/
theorem main_eq (c : Dev nD) : main (F := F) c = seq ops := by
  simp only [main, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., nullary_bufs_sub .., nullary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., binary_bufs_sub .., binary_bufs_sub .., nullary_bufs_sub .., nullary_bufs_sub .., nullary_bufs_sub .., unary_bufs_sub .., binary_bufs_sub .., binary_bufs_sub .., unary_bufs_sub .., unary_bufs_sub .., unary_bufs_sub .., binary_bufs_sub .., binary_bufs_sub .., nullary_bufs_sub .., binary_bufs_sub .., unary_bufs_sub .., nullary_bufs_sub .., binary_bufs_sub .., unary_bufs_sub .., binary_bufs_sub ..⟩

/-- Every execution terminates with each buffer at the fold of the operations over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The two results as terms of the arguments -/

/-- The cut matrices as the reference forms them: (Sᵀ W) first, then its product with S. -/
def cutR (s : FVec Ideal S4x8192x16 .f32) (w : FVec Ideal S4x8192x8192 .f32) : FVec Ideal S4x16x16 .f32 :=
  Host.dotGeneral dot_S4x16x8192_S4x8192x16_S4x16x16_2_1_1_2_0_0 none
    (Host.dotGeneral dot_S4x8192x16_S4x8192x8192_S4x16x8192_1_1_2_2_0_0 none s w) s

/-- The trace total as the reference forms it: the entries off the diagonal replaced by zero through the mask
    "row iota + 0 = column iota", the two matrix axes summed, then the batch axis. -/
def traceR (cut : FVec Ideal S4x16x16 .f32) : FVec Ideal S_ .f32 :=
  Host.reduceAdd
    (Host.reduceAdd
      (select
        (broadcastInDim S4x16x16 ![1, 2] bcast_S16x16_S4x16x16_1_2
          (cmpi .eq (addi (iotaInDim S16x16 32 0) (broadcastInDim S16x16 ![] bcast_S_S16x16 (constantI S_ 32 0#32)))
            (iotaInDim S16x16 32 1)))
        cut
        (broadcastInDim S4x16x16 ![] bcast_S_S4x16x16 (constant S_ .f32 0x00000000#32 : FVec Ideal S_ .f32)))
      (constant S_ .f32 0x00000000#32 : FVec Ideal S_ .f32) reducesTo_S4x16x16_S4_d1_2 h_S_)
    (constant S_ .f32 0x00000000#32 : FVec Ideal S_ .f32) reducesTo_S4_S_d0 h_S_

/-- The grand total: every entry of every cut matrix summed. -/
def totalR (cut : FVec Ideal S4x16x16 .f32) : FVec Ideal S_ .f32 :=
  Host.reduceAdd cut (constant S_ .f32 0x00000000#32 : FVec Ideal S_ .f32) reducesTo_S4x16x16_S_d0_1_2 h_S_

theorem v10_eq (V : Valuation τ sig (Elt Ideal)) :
    after (ops (F := Ideal)) V (main_v10 : DevRef τ sig) = Cert.Shared.softmax (V (main_arg2 : DevRef τ sig)) := by
  after_results_simp
  rfl

end Cert.ReferenceIdeal.Hand

end
-- ==== Proof.LibBatchedMatmul.lean ====
/-
  A batched matrix product read at an index, over the extended reals.

  With one batch axis (axis 0 of both operands and of the result), one kept axis per operand and one contracted
  axis per operand, entry `(a, b, c)` of the product accumulated into the zero array is a sum over the one
  contraction coordinate `k` of a left entry times a right entry, both in batch `a`:
  * the right operand contracted on its LAST axis, `[A, B, K] · [A, C, K] → [A, B, C]`:
    `∑ₖ lhs (a, b, k) * rhs (a, c, k)` (`nt_zero_apply`);
  * the right operand contracted on its MIDDLE axis, `[A, B, K] · [A, K, C] → [A, B, C]`:
    `∑ₖ lhs (a, b, k) * rhs (a, k, c)` (`nn_zero_apply`).
  The operand indices are read off the dimension numbers: a batch axis reads the result at its position among the
  batch axes, a kept axis at its position after them, the contracted axis reads the contraction coordinate.
-/
import Idealize.ShloMosaic.Lib.ValueIdx
import Idealize.ShloMosaic.PureOps.Ideal.Laws

noncomputable section

open scoped BigOperators

namespace Cert.Lib.BatchedMatmul

open Idealize.ShloMosaic Idealize.ShloMosaic.ValueIdx

/-! ## The operand indices, axis by axis, for any dimension numbers -/

section Axes

variable {sl sr so : Shape} (d : DotDims sl sr so)

/-- A left batch axis reads the result at the axis's position among the batch axes. -/
theorem lhsIdx_batch_val (j : so.Idx) (k : d.contr.Idx) (a : Fin sl.rank) (hb : a ∈ d.lhsBatch)
    (p : Nat) (hp : p < so.rank) (hpe : d.lhsBatch.idxOf a = p) : (d.lhsIdx j k a).val = (j ⟨p, hp⟩).val := by
  unfold DotDims.lhsIdx
  rw [dif_pos hb]
  simp only [Fin.val_cast]
  subst hpe
  rfl

/-- A left kept axis reads the result at its position after the batch axes. -/
theorem lhsIdx_non_val (j : so.Idx) (k : d.contr.Idx) (a : Fin sl.rank) (hb : a ∉ d.lhsBatch) (hn : a ∈ d.lhsNonContracting)
    (p : Nat) (hp : p < so.rank) (hpe : d.lhsBatch.length + d.lhsNonContracting.idxOf a = p) :
    (d.lhsIdx j k a).val = (j ⟨p, hp⟩).val := by
  unfold DotDims.lhsIdx
  rw [dif_neg hb, dif_pos hn]
  simp only [Fin.val_cast]
  subst hpe
  rfl

/-- A right batch axis reads the result at the axis's position among the batch axes. -/
theorem rhsIdx_batch_val (j : so.Idx) (k : d.contr.Idx) (a : Fin sr.rank) (hb : a ∈ d.rhsBatch)
    (p : Nat) (hp : p < so.rank) (hpe : d.rhsBatch.idxOf a = p) : (d.rhsIdx j k a).val = (j ⟨p, hp⟩).val := by
  unfold DotDims.rhsIdx
  rw [dif_pos hb]
  simp only [Fin.val_cast]
  subst hpe
  rfl

/-- A right kept axis reads the result at its position after the batch axes and the left kept axes. -/
theorem rhsIdx_non_val (j : so.Idx) (k : d.contr.Idx) (a : Fin sr.rank) (hb : a ∉ d.rhsBatch) (hn : a ∈ d.rhsNonContracting)
    (p : Nat) (hp : p < so.rank)
    (hpe : d.lhsBatch.length + d.lhsNonContracting.length + d.rhsNonContracting.idxOf a = p) :
    (d.rhsIdx j k a).val = (j ⟨p, hp⟩).val := by
  unfold DotDims.rhsIdx
  rw [dif_neg hb, dif_pos hn]
  simp only [Fin.val_cast]
  subst hpe
  rfl

end Axes

/-! ## The right operand contracted on its last axis: `[A, B, K] · [A, C, K] → [A, B, C]` -/

section NT

variable {A B C K : Nat} (d : DotDims ⟨3, ![A, B, K]⟩ ⟨3, ![A, C, K]⟩ ⟨3, ![A, B, C]⟩)
  (hlc : d.lhsContracting = [2]) (hrc : d.rhsContracting = [2])
  (hln : d.lhsNonContracting = [1]) (hrn : d.rhsNonContracting = [1])
  (hlb : d.lhsBatch = [0]) (hrb : d.rhsBatch = [0])

include hlc in
theorem nt_contr_rank : d.contr.rank = 1 := by rw [d.rank_contr, hlc]; rfl

include hlc in
theorem nt_contr_size (h0 : 0 < d.contr.rank) : d.contr.size ⟨0, h0⟩ = K := by
  have h1 : 0 < d.lhsContracting.length := by rw [hlc]; exact Nat.one_pos
  refine (d.size_contr 0 h1).trans ?_
  have : d.lhsContracting[0] = (2 : Fin (⟨3, ![A, B, K]⟩ : Shape).rank) := by simp [hlc]
  rw [this]
  rfl

include hlc hrc hln hrn hlb hrb in
/-- ENTRY `(a, b, c)` of `[A, B, K] · [A, C, K]` into the zero array: `∑ₖ lhs (a, b, k) * rhs (a, c, k)`. -/
theorem nt_zero_apply {φ₁ φ₂ : FTy} (prec : Option ContractPrecision)
    (lhs : FVec Ideal ⟨3, ![A, B, K]⟩ φ₁) (rhs : FVec Ideal ⟨3, ![A, C, K]⟩ φ₂) (a : Fin A) (b : Fin B) (c : Fin C) :
    FloatOps.matmul d prec lhs rhs (constant ⟨3, ![A, B, C]⟩ .f32 0x00000000#32) (ix3 a b c)
      = ∑ k : Fin K, lhs (ix3 a b k) * rhs (ix3 a c k) := by
  rw [Ideal.matmul_constant_zero_apply]
  have hr : d.contr.rank = 1 := nt_contr_rank d hlc
  have hs : d.contr.size ⟨0, by omega⟩ = K := nt_contr_size d hlc _
  rw [← Equiv.sum_comp (contrEquiv1 d K hr hs).symm]
  refine Finset.sum_congr rfl fun k _ => ?_
  have hl : d.lhsIdx (ix3 a b c) ((contrEquiv1 d K hr hs).symm k) = ix3 a b k := by
    funext x
    apply Fin.ext
    match x with
    | ⟨0, _⟩ =>
      exact lhsIdx_batch_val d (ix3 a b c) _ 0 (by rw [hlb]; exact List.mem_singleton.mpr rfl) 0 (by show (0 : ℕ) < 3; omega)
        (by rw [hlb]; rfl)
    | ⟨1, _⟩ =>
      exact lhsIdx_non_val d (ix3 a b c) _ 1 (by rw [hlb]; simp) (by rw [hln]; exact List.mem_singleton.mpr rfl) 1
        (by show (1 : ℕ) < 3; omega) (by rw [hlb, hln]; rfl)
    | ⟨2, _⟩ =>
      exact (d.lhsIdx_val_of_single (cl := 2) hlc (ix3 a b c) _).trans (contrEquiv1_symm_val d K hr hs k)
  have hr' : d.rhsIdx (ix3 a b c) ((contrEquiv1 d K hr hs).symm k) = ix3 a c k := by
    funext x
    apply Fin.ext
    match x with
    | ⟨0, _⟩ =>
      exact rhsIdx_batch_val d (ix3 a b c) _ 0 (by rw [hrb]; exact List.mem_singleton.mpr rfl) 0 (by show (0 : ℕ) < 3; omega)
        (by rw [hrb]; rfl)
    | ⟨1, _⟩ =>
      exact rhsIdx_non_val d (ix3 a b c) _ 1 (by rw [hrb]; simp) (by rw [hrn]; exact List.mem_singleton.mpr rfl) 2
        (by show (2 : ℕ) < 3; omega) (by rw [hlb, hln, hrn]; rfl)
    | ⟨2, _⟩ =>
      exact (d.rhsIdx_val_of_single (cr := 2) hrc (ix3 a b c) _).trans (contrEquiv1_symm_val d K hr hs k)
  rw [hl, hr']

end NT

/-! ## The right operand contracted on its middle axis: `[A, B, K] · [A, K, C] → [A, B, C]` -/

section NN

variable {A B C K : Nat} (d : DotDims ⟨3, ![A, B, K]⟩ ⟨3, ![A, K, C]⟩ ⟨3, ![A, B, C]⟩)
  (hlc : d.lhsContracting = [2]) (hrc : d.rhsContracting = [1])
  (hln : d.lhsNonContracting = [1]) (hrn : d.rhsNonContracting = [2])
  (hlb : d.lhsBatch = [0]) (hrb : d.rhsBatch = [0])

include hlc in
theorem nn_contr_rank : d.contr.rank = 1 := by rw [d.rank_contr, hlc]; rfl

include hlc in
theorem nn_contr_size (h0 : 0 < d.contr.rank) : d.contr.size ⟨0, h0⟩ = K := by
  have h1 : 0 < d.lhsContracting.length := by rw [hlc]; exact Nat.one_pos
  refine (d.size_contr 0 h1).trans ?_
  have : d.lhsContracting[0] = (2 : Fin (⟨3, ![A, B, K]⟩ : Shape).rank) := by simp [hlc]
  rw [this]
  rfl

include hlc hrc hln hrn hlb hrb in
/-- ENTRY `(a, b, c)` of `[A, B, K] · [A, K, C]` into the zero array: `∑ₖ lhs (a, b, k) * rhs (a, k, c)`. -/
theorem nn_zero_apply {φ₁ φ₂ : FTy} (prec : Option ContractPrecision)
    (lhs : FVec Ideal ⟨3, ![A, B, K]⟩ φ₁) (rhs : FVec Ideal ⟨3, ![A, K, C]⟩ φ₂) (a : Fin A) (b : Fin B) (c : Fin C) :
    FloatOps.matmul d prec lhs rhs (constant ⟨3, ![A, B, C]⟩ .f32 0x00000000#32) (ix3 a b c)
      = ∑ k : Fin K, lhs (ix3 a b k) * rhs (ix3 a k c) := by
  rw [Ideal.matmul_constant_zero_apply]
  have hr : d.contr.rank = 1 := nn_contr_rank d hlc
  have hs : d.contr.size ⟨0, by omega⟩ = K := nn_contr_size d hlc _
  rw [← Equiv.sum_comp (contrEquiv1 d K hr hs).symm]
  refine Finset.sum_congr rfl fun k _ => ?_
  have hl : d.lhsIdx (ix3 a b c) ((contrEquiv1 d K hr hs).symm k) = ix3 a b k := by
    funext x
    apply Fin.ext
    match x with
    | ⟨0, _⟩ =>
      exact lhsIdx_batch_val d (ix3 a b c) _ 0 (by rw [hlb]; exact List.mem_singleton.mpr rfl) 0 (by show (0 : ℕ) < 3; omega)
        (by rw [hlb]; rfl)
    | ⟨1, _⟩ =>
      exact lhsIdx_non_val d (ix3 a b c) _ 1 (by rw [hlb]; simp) (by rw [hln]; exact List.mem_singleton.mpr rfl) 1
        (by show (1 : ℕ) < 3; omega) (by rw [hlb, hln]; rfl)
    | ⟨2, _⟩ =>
      exact (d.lhsIdx_val_of_single (cl := 2) hlc (ix3 a b c) _).trans (contrEquiv1_symm_val d K hr hs k)
  have hr' : d.rhsIdx (ix3 a b c) ((contrEquiv1 d K hr hs).symm k) = ix3 a k c := by
    funext x
    apply Fin.ext
    match x with
    | ⟨0, _⟩ =>
      exact rhsIdx_batch_val d (ix3 a b c) _ 0 (by rw [hrb]; exact List.mem_singleton.mpr rfl) 0 (by show (0 : ℕ) < 3; omega)
        (by rw [hrb]; rfl)
    | ⟨1, _⟩ =>
      exact (d.rhsIdx_val_of_single (cr := 1) hrc (ix3 a b c) _).trans (contrEquiv1_symm_val d K hr hs k)
    | ⟨2, _⟩ =>
      exact rhsIdx_non_val d (ix3 a b c) _ 2 (by rw [hrb]; simp) (by rw [hrn]; exact List.mem_singleton.mpr rfl) 2
        (by show (2 : ℕ) < 3; omega) (by rw [hlb, hln, hrn]; rfl)
  rw [hl, hr']

end NN

end Cert.Lib.BatchedMatmul
-- ==== Proof.RefRead.lean ====
/-
  The reference's trace total and grand total, read as sums.

  The reference forms the cut matrix of a batch as (Sᵀ W) S by two batched contractions over the 8192 rows; entry
  (k, j) of it is ∑_q (∑_n S(n, k) W(n, q)) S(q, j). Its trace total replaces the entries off the diagonal by zero
  (the mask compares a row iota with a column iota), sums the two matrix axes and then the batch axis, all from the
  zero initial value; its grand total sums every entry of every matrix. Read at the extended reals these are the sum
  of the traces and the sum of all entries of the four 16 × 16 matrices: sums in a commutative monoid, re-indexed by
  coordinates, with no side condition on the values.
-/
import proofs.«176780_j25563645346550_2_alg».proof.Proof.RefRun
import proofs.«176780_j25563645346550_2_alg».proof.Proof.LibBatchedMatmul
import Idealize.ShloMosaic.Lib.IdealHost
import Idealize.ShloMosaic.Lib.Pipeline.Value
import Idealize.ShloMosaic.PureOps.Ideal.Laws
import Idealize.ShloMosaic.Lib.ValueIdx

noncomputable section

open scoped BigOperators

namespace Cert.ReferenceIdeal.Hand

open Cert.ReferenceIdeal Cert.ReferenceIdeal.Gen Idealize.ShloMosaic Idealize.ShloMosaic.ValueIdx

/-! ## Sums over one-axis and three-axis index sets -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The two contractions read at an entry -/

section TN

open Cert.Lib.BatchedMatmul

variable {A B C K : Nat} (d : DotDims ⟨3, ![A, K, B]⟩ ⟨3, ![A, K, C]⟩ ⟨3, ![A, B, C]⟩)
  (hlc : d.lhsContracting = [1]) (hrc : d.rhsContracting = [1])
  (hln : d.lhsNonContracting = [2]) (hrn : d.rhsNonContracting = [2])
  (hlb : d.lhsBatch = [0]) (hrb : d.rhsBatch = [0])

include hlc in
theorem tn_contr_rank : d.contr.rank = 1 := by rw [d.rank_contr, hlc]; rfl

include hlc in
theorem tn_contr_size (h0 : 0 < d.contr.rank) : d.contr.size ⟨0, h0⟩ = K := by
  have h1 : 0 < d.lhsContracting.length := by rw [hlc]; exact Nat.one_pos
  refine (d.size_contr 0 h1).trans ?_
  have : d.lhsContracting[0] = (1 : Fin (⟨3, ![A, K, B]⟩ : Shape).rank) := by simp [hlc]
  rw [this]
  rfl

include hlc hrc hln hrn hlb hrb in
/-- Entry `(a, b, c)` of the batched product `[A, K, B] · [A, K, C]` contracting both middle axes:
    `∑ₖ lhs (a, k, b) * rhs (a, k, c)`. -/
theorem tn_apply {φ₁ φ₂ : FTy} (prec : Option ContractPrecision)
    (lhs : FVec Ideal ⟨3, ![A, K, B]⟩ φ₁) (rhs : FVec Ideal ⟨3, ![A, K, C]⟩ φ₂) (a : Fin A) (b : Fin B) (c : Fin C) :
    Host.dotGeneral d prec lhs rhs (ix3 a b c) = ∑ k : Fin K, lhs (ix3 a k b) * rhs (ix3 a k c) := by
  simp only [Host.dotGeneral]
  rw [Ideal.dotGeneral_apply]
  have hr : d.contr.rank = 1 := tn_contr_rank d hlc
  have hs : d.contr.size ⟨0, by omega⟩ = K := tn_contr_size d hlc _
  rw [← Equiv.sum_comp (contrEquiv1 d K hr hs).symm]
  refine Finset.sum_congr rfl fun k _ => ?_
  have hl : d.lhsIdx (ix3 a b c) ((contrEquiv1 d K hr hs).symm k) = ix3 a k b := by
    funext x
    apply Fin.ext
    match x with
    | ⟨0, _⟩ =>
      exact lhsIdx_batch_val d (ix3 a b c) _ 0 (by rw [hlb]; exact List.mem_singleton.mpr rfl) 0 (by show (0 : ℕ) < 3; omega)
        (by rw [hlb]; rfl)
    | ⟨1, _⟩ =>
      exact (d.lhsIdx_val_of_single (cl := 1) hlc (ix3 a b c) _).trans (contrEquiv1_symm_val d K hr hs k)
    | ⟨2, _⟩ =>
      exact lhsIdx_non_val d (ix3 a b c) _ 2 (by rw [hlb]; simp) (by rw [hln]; exact List.mem_singleton.mpr rfl) 1
        (by show (1 : ℕ) < 3; omega) (by rw [hlb, hln]; rfl)
  have hr' : d.rhsIdx (ix3 a b c) ((contrEquiv1 d K hr hs).symm k) = ix3 a k c := by
    funext x
    apply Fin.ext
    match x with
    | ⟨0, _⟩ =>
      exact rhsIdx_batch_val d (ix3 a b c) _ 0 (by rw [hrb]; exact List.mem_singleton.mpr rfl) 0 (by show (0 : ℕ) < 3; omega)
        (by rw [hrb]; rfl)
    | ⟨1, _⟩ =>
      exact (d.rhsIdx_val_of_single (cr := 1) hrc (ix3 a b c) _).trans (contrEquiv1_symm_val d K hr hs k)
    | ⟨2, _⟩ =>
      exact rhsIdx_non_val d (ix3 a b c) _ 2 (by rw [hrb]; simp) (by rw [hrn]; exact List.mem_singleton.mpr rfl) 2
        (by show (2 : ℕ) < 3; omega) (by rw [hlb, hln, hrn]; rfl)
  rw [hl, hr']

end TN

/-- The host's product is the matrix unit's into the zero array. -/
theorem dotGeneral_eq_matmul_zero {sl sr so : Shape} {φ₁ φ₂ : FTy} (d : DotDims sl sr so) (prec : Option ContractPrecision)
    (lhs : FVec Ideal sl φ₁) (rhs : FVec Ideal sr φ₂) (j : so.Idx) :
    Host.dotGeneral d prec lhs rhs j = FloatOps.matmul d prec lhs rhs (constant so .f32 0x00000000#32) j := by
  simp only [Host.dotGeneral]
  exact (Ideal.dotGeneral_apply d prec .single lhs rhs j).trans (Ideal.matmul_constant_zero_apply d prec lhs rhs j).symm

/-- The cut matrices the reference forms are (Sᵀ W) S entry by entry. -/
theorem cutR_apply (s : FVec Ideal S4x8192x16 .f32) (w : FVec Ideal S4x8192x8192 .f32) (b : Fin 4) (k j : Fin 16) :
    cutR s w (ix3 b k j) = Cert.Shared.cutRef (Cert.Shared.arr3 s) (Cert.Shared.arr3 w) b k j := by
  unfold cutR Cert.Shared.cutRef Cert.Shared.arr3
  rw [dotGeneral_eq_matmul_zero,
    Cert.Lib.BatchedMatmul.nn_zero_apply (A := 4) (B := 16) (C := 16) (K := 8192)
      dot_S4x16x8192_S4x8192x16_S4x16x16_2_1_1_2_0_0 rfl rfl rfl rfl rfl rfl]
  refine Finset.sum_congr rfl fun q _ => ?_
  rw [tn_apply (A := 4) (B := 16) (C := 8192) (K := 8192)
      dot_S4x8192x16_S4x8192x8192_S4x16x8192_1_1_2_2_0_0 rfl rfl rfl rfl rfl rfl]

/-! ## The mask and the reductions -/

/-- The comparison "row iota + 0 = column iota" selects the diagonal. -/
theorem diag_select {α : Type} (k j : Fin 16) (x y : α) :
    Scalar.select (IntOp.cmpi .eq (IntOp.addi (BitVec.ofNat 32 k.val) 0#32) (BitVec.ofNat 32 j.val)) x y
      = if k = j then x else y := by
  have hk : (BitVec.ofNat 32 k.val + 0#32 == BitVec.ofNat 32 j.val) = decide (k = j) := by
    rw [BitVec.add_zero]
    by_cases h : k = j
    · subst h; simp
    · have hne : BitVec.ofNat 32 k.val ≠ BitVec.ofNat 32 j.val := by
        intro e
        have e' := congrArg BitVec.toNat e
        simp only [BitVec.toNat_ofNat] at e'
        have hk := k.isLt; have hj := j.isLt
        rw [Nat.mod_eq_of_lt (by omega), Nat.mod_eq_of_lt (by omega)] at e'
        exact h (Fin.ext e')
      simp [hne, h]
  unfold Scalar.select IntOp.cmpi IntOp.addi
  simp only [hk]
  by_cases h : k = j <;> simp [h]

/-- The masked cut matrices: the diagonal kept, zero elsewhere. -/
theorem masked_apply (cut : FVec Ideal S4x16x16 .f32) (b : Fin 4) (k j : Fin 16) :
    select
        (broadcastInDim S4x16x16 ![1, 2] bcast_S16x16_S4x16x16_1_2
          (cmpi .eq (addi (iotaInDim S16x16 32 0) (broadcastInDim S16x16 ![] bcast_S_S16x16 (constantI S_ 32 0#32)))
            (iotaInDim S16x16 32 1)))
        cut
        (broadcastInDim S4x16x16 ![] bcast_S_S4x16x16 (constant S_ .f32 0x00000000#32 : FVec Ideal S_ .f32)) (ix3 b k j)
      = if k = j then cut (ix3 b k j) else 0 := by
  rw [select_apply, broadcastInDim_scalar_apply,
    broadcastInDim_apply ![1, 2] bcast_S16x16_S4x16x16_1_2 _ (ix3 b k j) (ix2 k j)
      (fun a => by match a with | ⟨0, _⟩ => rfl | ⟨1, _⟩ => rfl)]
  show Scalar.select (IntOp.cmpi .eq (IntOp.addi (BitVec.ofNat 32 k.val)
      (broadcastInDim S16x16 ![] bcast_S_S16x16 (constantI S_ 32 0#32) (ix2 k j))) (BitVec.ofNat 32 j.val)) _ _ = _
  rw [broadcastInDim_scalar_apply]
  show Scalar.select (IntOp.cmpi .eq (IntOp.addi (BitVec.ofNat 32 k.val) 0#32) (BitVec.ofNat 32 j.val)) (cut (ix3 b k j))
      (Ideal.ofBits .f32 0x00000000#32) = _
  rw [diag_select, Ideal.ofBits_zero_f32]

/-- Dropping the two matrix axes of an index leaves its batch coordinate. -/
theorem drop12 (h : S4x16x16.ReducesTo [1, 2] S4) (a : Fin 4) (k j : Fin 16) : h.drop (ix3 a k j) = ix1 a := by
  funext x
  apply Fin.ext
  match x with
  | ⟨0, _⟩ => exact h.drop_apply_val_of_eq (ix3 a k j) 0 0

/-- The elements that reduce to batch `b` are the entries of matrix `b`. -/
theorem sum_rows (h : S4x16x16.ReducesTo [1, 2] S4) (Y : S4x16x16.Idx → EReal) (b : Fin 4) :
    ∑ i ∈ Finset.univ.filter (fun i => h.drop i = ix1 b), Y i = ∑ k : Fin 16, ∑ j : Fin 16, Y (ix3 b k j) := by
  rw [Finset.sum_filter, sum_idx3, Finset.sum_eq_single_of_mem b (Finset.mem_univ b)]
  · refine Finset.sum_congr rfl fun k _ => Finset.sum_congr rfl fun j _ => ?_
    rw [if_pos (drop12 h b k j)]
  · intro a _ hab
    refine Finset.sum_eq_zero fun k _ => Finset.sum_eq_zero fun j _ => ?_
    rw [if_neg]
    intro he
    exact hab (congrFun ((drop12 h a k j).symm.trans he) 0)

/-- The reference's trace total is the sum of the traces of the cut matrices. -/
theorem traceR_eq (cut : FVec Ideal S4x16x16 .f32) :
    traceR cut = fun _ => ∑ b : Fin 4, ∑ k : Fin 16, cut (ix3 b k k) := by
  funext i0
  unfold traceR
  rw [hostReduceAdd_apply, Ideal.hostReduceAdd_total _ (fun b => b.elim0), sum_idx1, constant_apply, Ideal.ofBits_zero_f32, zero_add]
  refine Finset.sum_congr rfl fun b _ => ?_
  rw [hostReduceAdd_apply]
  unfold Ideal.hostReduceAdd
  rw [sum_rows, constant_apply, Ideal.ofBits_zero_f32, zero_add]
  refine Finset.sum_congr rfl fun k _ => ?_
  rw [Finset.sum_congr rfl (fun j _ => masked_apply cut b k j), Finset.sum_ite_eq, if_pos (Finset.mem_univ k)]

/-- The reference's grand total is the sum of all entries of the cut matrices. -/
theorem totalR_eq (cut : FVec Ideal S4x16x16 .f32) :
    totalR cut = fun _ => ∑ b : Fin 4, ∑ k : Fin 16, ∑ j : Fin 16, cut (ix3 b k j) := by
  funext i0
  unfold totalR
  rw [hostReduceAdd_apply, Ideal.hostReduceAdd_total _ (fun b => b.elim0), sum_idx3, constant_apply, Ideal.ofBits_zero_f32, zero_add]

/-- The trace total of the reference's cut matrices, in the shared terms. -/
theorem traceR_cutR (s : FVec Ideal S4x8192x16 .f32) (w : FVec Ideal S4x8192x8192 .f32) :
    traceR (cutR s w) = fun _ => Cert.Shared.traceOf (Cert.Shared.cutRef (Cert.Shared.arr3 s) (Cert.Shared.arr3 w)) := by
  rw [traceR_eq]
  funext _
  unfold Cert.Shared.traceOf
  simp only [cutR_apply]

/-- The grand total of the reference's cut matrices, in the shared terms. -/
theorem totalR_cutR (s : FVec Ideal S4x8192x16 .f32) (w : FVec Ideal S4x8192x8192 .f32) :
    totalR (cutR s w) = fun _ => Cert.Shared.totalOf (Cert.Shared.cutRef (Cert.Shared.arr3 s) (Cert.Shared.arr3 w)) := by
  rw [totalR_eq]
  funext _
  unfold Cert.Shared.totalOf
  simp only [cutR_apply]

end Cert.ReferenceIdeal.Hand

end
-- ==== Proof.RefSpec.lean ====
/-
  The reference's run in the shared terms.

  After the reference's line of operations the assignments buffer holds the row softmax of the logits and the loss
  buffer holds −(T / C) + ‖SᵀS − I‖ / 4, where T and C are the trace total and the grand total of the cut matrices
  (Sᵀ W) S of the four batches, written as the sums over coordinates that the kernel's side is compared with; the
  three argument buffers are as at the start.
-/
import proofs.«176780_j25563645346550_2_alg».proof.Proof.RefRead

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
/-- The loss buffer after the line: the shared loss of the reference's trace total, grand total and assignments. -/
theorem v32_eq (V : Valuation τ sig (Elt Ideal)) :
    after (ops (F := Ideal)) V (main_v32 : DevRef τ sig)
      = Cert.Shared.lossOf
          (traceR (cutR (Cert.Shared.softmax (V (main_arg2 : DevRef τ sig))) (V (main_arg1 : DevRef τ sig))))
          (totalR (cutR (Cert.Shared.softmax (V (main_arg2 : DevRef τ sig))) (V (main_arg1 : DevRef τ sig))))
          (Cert.Shared.softmax (V (main_arg2 : DevRef τ sig))) := by
  after_results_simp
  rfl

theorem arg0_eq (V : Valuation τ sig (Elt Ideal)) :
    after (ops (F := Ideal)) V (main_arg0 : DevRef τ sig) = V (main_arg0 : DevRef τ sig) := by
  after_results_simp
theorem arg1_eq (V : Valuation τ sig (Elt Ideal)) :
    after (ops (F := Ideal)) V (main_arg1 : DevRef τ sig) = V (main_arg1 : DevRef τ sig) := by
  after_results_simp
theorem arg2_eq (V : Valuation τ sig (Elt Ideal)) :
    after (ops (F := Ideal)) V (main_arg2 : DevRef τ sig) = V (main_arg2 : DevRef τ sig) := by
  after_results_simp

/-- Every execution of the reference terminates with the assignments at the row softmax of the logits, the loss at
    the shared loss of the trace and the total of the cut matrices (Sᵀ W) S, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10) = Cert.Shared.softmax (m ((c.tc : Thread nD τ).loc main_arg2))
      ∧ r.2.mem ((c.tc : Thread nD τ).loc main_v32)
          = Cert.Shared.lossOf
              (fun _ => Cert.Shared.traceOf (Cert.Shared.cutRef (Cert.Shared.arr3 (Cert.Shared.softmax (m ((c.tc : Thread nD τ).loc main_arg2)))) (Cert.Shared.arr3 (φ := .f32) (m ((c.tc : Thread nD τ).loc main_arg1)))))
              (fun _ => Cert.Shared.totalOf (Cert.Shared.cutRef (Cert.Shared.arr3 (Cert.Shared.softmax (m ((c.tc : Thread nD τ).loc main_arg2)))) (Cert.Shared.arr3 (φ := .f32) (m ((c.tc : Thread nD τ).loc main_arg1)))))
              (Cert.Shared.softmax (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
      ⟨(h c main_v10).trans (v10_eq _),
       (h c main_v32).trans ((v32_eq _).trans (by rw [traceR_cutR, totalR_cutR])),
       (h c main_arg0).trans (arg0_eq _),
       (h c main_arg1).trans (arg1_eq _),
       (h c main_arg2).trans (arg2_eq _)⟩)
    (run_main m ρ)

end Cert.ReferenceIdeal.Hand

end
-- ==== Proof.FiniteInputs.lean ====
/-
  The precondition read back: every entry of the affinity array and of the logits is a real number.

  The precondition is the conjunction of three tests, one per argument array, each saying that every entry x of the
  array has |x| < +∞, where |x| = max x (−x) on the extended reals. An extended real whose absolute value is strictly
  below +∞ is neither −∞ (whose absolute value is +∞) nor +∞, hence is the image of a real number.
-/
import proofs.«176780_j25563645346550_2_alg».proof.Defs
import proofs.«176780_j25563645346550_2_alg».proof.Proof.Gen.KernelIdeal
import proofs.«176780_j25563645346550_2_alg».proof.Proof.Gen.Pre_finite_inputs
import Idealize.ShloMosaic.Lib.ReduceAll
import Idealize.ShloMosaic.Lib.ValueIdx

noncomputable section

namespace Cert.Hand.FiniteInputs

open Idealize.ShloMosaic Idealize.SL.Sem

/-- The scalar shape has one index. -/
instance subsingleton_scalar_idx : Subsingleton Cert.Pre_finite_inputs.S_.Idx := ⟨fun a b => funext fun d => d.elim0⟩

/-- An extended real whose absolute value max x (−x) is strictly below +∞ is a real number: −∞ and +∞ both have
    absolute value +∞. -/
theorem real_of_abs_lt_top (x : EReal) (h : max x (-x) < ⊤) : ∃ r : ℝ, x = (r : EReal) := by
  induction x using EReal.rec with
  | bot => simp at h
  | coe r => exact ⟨r, rfl⟩
  | top => simp at h

/-- The bit pattern 0x7F800000 denotes +∞. -/
theorem inf_pattern : Ideal.ofBits .f32 0x7F800000#32 = ⊤ := by simp [Ideal.ofBits, Ideal.ieee]

/-- One entry's test read back: if the comparison |x| < +∞ answers 1 then x is a real number. -/
theorem real_of_test (x : EReal)
    (h : FloatOps.cmpf (F := Ideal) (φ := .f32) .olt (FloatOps.hostAbsf x) (FloatOps.ofBits .f32 0x7F800000#32) = 1#1) :
    ∃ r : ℝ, x = (r : EReal) := by
  refine real_of_abs_lt_top x ?_
  have h' : BitVec.ofBool (decide (max x (-x) < Ideal.ofBits .f32 0x7F800000#32)) = 1#1 := h
  rw [inf_pattern] at h'
  by_contra hn
  rw [decide_eq_false hn] at h'
  exact absurd h' (by decide)

end Cert.Hand.FiniteInputs

namespace Cert.Hand

open Idealize.ShloMosaic Idealize.SL.Sem Cert.Hand.FiniteInputs

/-- Under the precondition every entry of the affinities (second argument) and of the logits (third argument) is a
    real number. -/
theorem real_of_pre
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have e := congrFun (h c) ValueIdx.ix0
  dsimp only [Cert.Pre_finite_inputs.fn] at e
  obtain ⟨e01, e2⟩ := IntOp.andi_eq_one.1 e
  obtain ⟨-, e1⟩ := IntOp.andi_eq_one.1 e01
  refine ⟨fun i => ?_, fun i => ?_⟩
  · exact real_of_test _ (Host.reduce_andi_all _ _ _ _ _ e1 i)
  · exact real_of_test _ (Host.reduce_andi_all _ _ _ _ _ e2 i)

end Cert.Hand

end
-- ==== Proof.SoftmaxReal.lean ====
/-
  The softmax of real logits is real.

  At every entry the softmax is exp (x − M) / Z, where M is the maximum of −∞ and the sixteen entries of the row, and Z
  is 0 plus the sum of the sixteen exponentials of the row. When every logit is a real number, M is a real number (a
  maximum of −∞ and at least one real, all the others real), every exponential exp (x − M) is a positive real, Z is a sum
  of sixteen positive reals, hence a positive real, and the quotient of a real by a nonzero real is a real.
-/
import proofs.«176780_j25563645346550_2_alg».proof.Proof.Shared
import Idealize.ShloMosaic.PureOps.Ideal.Laws
import Idealize.ShloMosaic.Lib.ValueIdx

noncomputable section

open scoped BigOperators

namespace Cert.Shared.SoftmaxStages

open Idealize.ShloMosaic Idealize.ShloMosaic.ValueIdx

/-! ## The stages of the softmax, named -/

/-- The row maximum: the maximum of −∞ and the entries of the row. -/
def rowMax (x : FVec Ideal SL .f32) : FVec Ideal SR .f32 :=
  maximumf (broadcastInDim SR ![] (by decide) (constant S0 .f32 0xFF800000#32 : FVec Ideal S0 .f32))
    (Host.reduce FloatOps.maximumf x (constant S0 .f32 0xFF800000#32 : FVec Ideal S0 .f32) (by decide : SL.ReducesTo [2] SR) (by decide))

/-- A per-row quantity copied along its row: [4, 8192] → [4, 8192, 1] → [4, 8192, 16]. -/
def spread {α : Type} (y : SR.Idx → α) : SL.Idx → α :=
  broadcastInDim SL ![0, 1, 2] (by decide) (broadcastInDim SR1 ![0, 1] (by decide) y : SR1.Idx → α)

/-- The exponentials exp (x − M). -/
def expStage (x : FVec Ideal SL .f32) : FVec Ideal SL .f32 := Host.exp (subf x (spread (rowMax x)))

/-- The row sum Z of the exponentials, started from 0. -/
def rowSum (x : FVec Ideal SL .f32) : FVec Ideal SR .f32 :=
  Host.reduceAdd (expStage x) (constant S0 .f32 0x00000000#32 : FVec Ideal S0 .f32) (by decide : SL.ReducesTo [2] SR) (by decide)

/-- The softmax is the quotient of the exponentials by their row sum. -/
theorem softmax_eq_stages (x : FVec Ideal SL .f32) : softmax x = Host.divf (expStage x) (spread (rowSum x)) := rfl

/-- A copied per-row quantity reads, at every entry, the quantity at some row. -/
theorem spread_apply {α : Type} (y : SR.Idx → α) (i : SL.Idx) : ∃ j : SR.Idx, spread y i = y j := ⟨_, rfl⟩

/-! ## Maxima and sums of reals -/

/-- The bit pattern 0xFF800000 denotes −∞. -/
theorem neg_inf_pattern : Ideal.ofBits .f32 0xFF800000#32 = ⊥ := by simp [Ideal.ofBits, Ideal.ieee]

/-- The maximum of two reals is a real. -/
theorem max_coe_coe (a b : ℝ) : max (a : EReal) (b : EReal) = ((max a b : ℝ) : EReal) :=
  (EReal.coe_strictMono.monotone.map_max).symm

/-- A maximum, started from −∞, over a finite family of reals is −∞ or a real. -/
theorem fold_max_bot_or_real {ι : Type} [DecidableEq ι] (f : ι → EReal) (hf : ∀ k, ∃ r : ℝ, f k = (r : EReal)) (s : Finset ι) :
    s.fold (FloatOps.maximumf (F := Ideal) (φ := .f32)) ⊥ f = ⊥
      ∨ ∃ r : ℝ, s.fold (FloatOps.maximumf (F := Ideal) (φ := .f32)) ⊥ f = (r : EReal) := by
  induction s using Finset.induction_on with
  | empty => exact Or.inl Finset.fold_empty
  | insert a s ha ih =>
    rw [Finset.fold_insert ha]
    obtain ⟨r, hr⟩ := hf a
    rcases ih with h0 | ⟨q, hq⟩
    · exact Or.inr ⟨r, by rw [h0, hr]; exact max_bot_right _⟩
    · exact Or.inr ⟨max r q, by rw [hq, hr]; exact max_coe_coe r q⟩

/-- Over a nonempty family it is a real. -/
theorem fold_max_real {ι : Type} [DecidableEq ι] (f : ι → EReal) (hf : ∀ k, ∃ r : ℝ, f k = (r : EReal)) (s : Finset ι)
    (hs : s.Nonempty) : ∃ r : ℝ, s.fold (FloatOps.maximumf (F := Ideal) (φ := .f32)) ⊥ f = (r : EReal) := by
  obtain ⟨a, ha⟩ := hs
  rw [← Finset.insert_erase ha, Finset.fold_insert (Finset.notMem_erase a s)]
  obtain ⟨r, hr⟩ := hf a
  rcases fold_max_bot_or_real f hf (s.erase a) with h0 | ⟨q, hq⟩
  · exact ⟨r, by rw [h0, hr]; exact max_bot_right _⟩
  · exact ⟨max r q, by rw [hq, hr]; exact max_coe_coe r q⟩

/-- A finite sum of reals, taken in the extended reals, is the real sum. -/
theorem sum_coe {ι : Type} [DecidableEq ι] (g : ι → ℝ) (s : Finset ι) :
    ∑ k ∈ s, (g k : EReal) = ((∑ k ∈ s, g k : ℝ) : EReal) := by
  induction s using Finset.induction_on with
  | empty => simp
  | insert a s ha ih => rw [Finset.sum_insert ha, Finset.sum_insert ha, ih, EReal.coe_add]

/-! ## The stages on real logits -/

/-- A row has sixteen entries. -/
theorem row_nonempty : (Finset.univ : Finset (Fin (SL.size 2))).Nonempty := ⟨⟨0, by decide⟩, Finset.mem_univ _⟩

/-- The row maximum of real logits is a real. -/
theorem rowMax_real (x : FVec Ideal SL .f32) (hx : ∀ i, ∃ r : ℝ, x i = (r : EReal)) (j : SR.Idx) :
    ∃ r : ℝ, rowMax x j = (r : EReal) := by
  have h : SL.Reduces [2] SR := by decide
  have e : Host.reduce FloatOps.maximumf x (constant S0 .f32 0xFF800000#32 : FVec Ideal S0 .f32) (by decide : SL.ReducesTo [2] SR) (by decide) j
      = (Finset.univ : Finset (Fin (SL.size 2))).fold (FloatOps.maximumf (F := Ideal) (φ := .f32)) (Ideal.ofBits .f32 0xFF800000#32) (x ∘ h.lift j) :=
    Host.reduce_eq_fold_single (FloatOps.maximumf (F := Ideal) (φ := .f32)) x _ _ h _ j
  rw [neg_inf_pattern] at e
  obtain ⟨r, hr⟩ := fold_max_real (x ∘ h.lift j) (fun k => hx _) Finset.univ row_nonempty
  refine ⟨r, ?_⟩
  have e2 : rowMax x j = max (Ideal.ofBits .f32 0xFF800000#32)
      (Host.reduce FloatOps.maximumf x (constant S0 .f32 0xFF800000#32 : FVec Ideal S0 .f32) (by decide : SL.ReducesTo [2] SR) (by decide) j) := rfl
  rw [e2, e, hr, neg_inf_pattern]
  exact max_bot_left _

/-- Every exponential exp (x − M) of real logits is a positive real. -/
theorem expStage_pos (x : FVec Ideal SL .f32) (hx : ∀ i, ∃ r : ℝ, x i = (r : EReal)) (i : SL.Idx) :
    ∃ r : ℝ, 0 < r ∧ expStage x i = (r : EReal) := by
  obtain ⟨a, ha⟩ := hx i
  obtain ⟨j, hj⟩ := spread_apply (rowMax x) i
  obtain ⟨m, hm⟩ := rowMax_real x hx j
  have e : expStage x i = Ideal.exp (x i - spread (rowMax x) i) := rfl
  refine ⟨Real.exp (a - m), Real.exp_pos _, ?_⟩
  rw [e, hj, hm, ha, ← EReal.coe_sub, Ideal.exp_coe]

/-- The row sum of the exponentials of real logits is a positive real. -/
theorem rowSum_pos (x : FVec Ideal SL .f32) (hx : ∀ i, ∃ r : ℝ, x i = (r : EReal)) (j : SR.Idx) :
    ∃ r : ℝ, 0 < r ∧ rowSum x j = (r : EReal) := by
  have h : SL.Reduces [2] SR := by decide
  choose g hgpos hg using expStage_pos x hx
  have e : rowSum x j = Ideal.hostReduceAdd (by decide : SL.ReducesTo [2] SR) (expStage x) (Ideal.ofBits .f32 0x00000000#32) j := rfl
  refine ⟨∑ k : Fin (SL.size 2), g (h.lift j k), Finset.sum_pos (fun k _ => hgpos _) row_nonempty, ?_⟩
  rw [e, Ideal.hostReduceAdd_single _ h, Ideal.ofBits_zero_f32, zero_add, ← sum_coe]
  exact Finset.sum_congr rfl fun k _ => hg _

end Cert.Shared.SoftmaxStages

namespace Cert.Shared

open Idealize.ShloMosaic Idealize.ShloMosaic.ValueIdx Cert.Shared.SoftmaxStages

/-- THE SOFTMAX OF REAL LOGITS IS REAL. -/
theorem softmax_real (x : FVec Ideal SL .f32) (hx : ∀ i, ∃ r : ℝ, x i = (r : EReal)) :
    ∀ i, ∃ r : ℝ, softmax x i = (r : EReal) := by
  intro i
  obtain ⟨a, -, ha⟩ := expStage_pos x hx i
  obtain ⟨j, hj⟩ := spread_apply (rowSum x) i
  obtain ⟨z, hz, hzj⟩ := rowSum_pos x hx j
  have e : softmax x i = Ideal.div (expStage x i) (spread (rowSum x) i) := rfl
  refine ⟨a * (1 / z), ?_⟩
  rw [e, hj, hzj, ha, Ideal.div_coe (ne_of_gt hz), ← EReal.coe_mul]

end Cert.Shared

end
-- ==== Proof.lean ====
/-
  The proof of `Cert.Claim`: a graph-partitioning loss computed by a tiled kernel against its dense reference.

  Both programs form the cluster assignments S = softmax(logits) by the same host operations and return S as their first
  result. The second result is −(T / C) + ‖SᵀS − I‖_F / 4, where T is the sum over the four batches of the trace of the
  batch's cut matrix and C the sum of all its entries. The reference forms the cut matrix as (Sᵀ W) S by two batched
  products; the kernel streams W in 32 row tiles of 256 per batch and accumulates S_tileᵀ (W_tile S) in a 16 × 16
  scratch, so that after the batch's last tile the scratch holds Sᵀ (W S), whose trace and total it writes to two lanes
  of its output block; the host then sums the lanes over the batches. Entry by entry the two associations are
      ∑_n S(n,k) · (∑_q W(n,q) · S(q,l))   and   ∑_q (∑_n S(n,k) · W(n,q)) · S(q,l),
  equal when every factor is a real number: on the extended reals a product does not distribute over a sum that meets
  an infinity, which is where the precondition (all inputs finite) is used — W is finite by it, and the softmax of
  finite logits is finite (each row's maximum is a real, the exponentials are positive reals, so is their sum). Every
  other step (the tile-by-tile running total, the order of the trace and total sums, the diagonal mask against the
  select) is associativity and commutativity of addition, which hold with infinities too. The ideal pass rewrote
  nothing, so `preserves` is trivial; the frames are the generated ones, and the reference's is its run with the
  results dropped.
-/
import proofs.«176780_j25563645346550_2_alg».proof.Defs
import proofs.«176780_j25563645346550_2_alg».proof.Proof.Gen.Kernel
import proofs.«176780_j25563645346550_2_alg».proof.Proof.Gen.Kernel.Frame
import proofs.«176780_j25563645346550_2_alg».proof.Proof.Gen.KernelIdeal
import proofs.«176780_j25563645346550_2_alg».proof.Proof.Gen.KernelIdeal.Frame
import proofs.«176780_j25563645346550_2_alg».proof.Proof.Gen.ReferenceIdeal
import proofs.«176780_j25563645346550_2_alg».proof.Proof.Gen.Pre_finite_inputs
import proofs.«176780_j25563645346550_2_alg».proof.Proof.KernelRun
import proofs.«176780_j25563645346550_2_alg».proof.Proof.RefSpec
import proofs.«176780_j25563645346550_2_alg».proof.Proof.FiniteInputs
import proofs.«176780_j25563645346550_2_alg».proof.Proof.SoftmaxReal
import proofs.«176780_j25563645346550_2_alg».proof.Proof.CutAlgebra
import Idealize.ShloMosaic.Adequacy
import Idealize.ShloMosaic.Init

noncomputable section

namespace Cert.Proof

open Idealize.ShloMosaic Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Hand.run_spec m ρ)

theorem preserves : Cert.preserves_Kernel_KernelIdeal := trivial

/-- Under finite inputs the kernel's association of the cut matrices is the reference's. -/
theorem cut_eq (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.KernelIdeal.Hand.cutK m c
      = Cert.Shared.cutRef (Cert.KernelIdeal.Hand.sOf m c) (Cert.KernelIdeal.Hand.wOf m c) :=
  Cert.Shared.cutKer_eq_cutRef _ _
    (fun b n k => Cert.Shared.softmax_real _ (Cert.Hand.real_of_pre m hpre c).2 (ix3 b n k))
    (fun b n q => (Cert.Hand.real_of_pre m hpre c).1 (ix3 b n q))

/-- At the ideal instance both programs end with the assignments and with the same loss. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, Cert.KernelIdeal.Hand.run_spec m ρ, ?_⟩
  refine (θ_run Cert.ReferenceIdeal.defs _ _).mono (fun _ h c => ?_) (Cert.ReferenceIdeal.Hand.run_spec m' ρ')
  obtain ⟨h1, h2, h3, h4, h5⟩ := h c
  obtain ⟨-, a1, a2⟩ := hagree c
  refine ⟨?_, ?_, h3, h4, h5⟩
  · rw [h1, a2]
  · rw [h2, a1, a2, cut_eq m hpre c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
